-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg9 : FVec F S64 .f32) (main_arg10 : FVec F S64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S1000000x64 .f32) (main_arg2 : IVec S1000000 32) (main_arg3 : IVec S1000000 32) (main_arg4 : FVec F S192x64 .f32) (main_arg5 : FVec F S64 .f32) (main_arg6 : FVec F S128x64 .f32) (main_arg7 : FVec F S64 .f32) (main_arg8 : FVec F S64 .f32) (main_arg9 : FVec F S64 .f32) (main_arg10 : FVec F S64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S128x64 : Shape := ⟨2, ![128, 64]⟩
abbrev S_ : Shape := ⟨0, ![]⟩
abbrev S1000000x1 : Shape := ⟨2, ![1000000, 1]⟩
abbrev S64x64 : Shape := ⟨2, ![64, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S10000x64 : Shape := ⟨2, ![10000, 64]⟩
abbrev S10000 : Shape := ⟨1, ![10000]⟩
abbrev S10000x1 : Shape := ⟨2, ![10000, 1]⟩

abbrev nBuf : Space → Nat
  | .hbm => 53
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .bf16⟩
  | .hbm, ⟨34, _⟩ => ⟨S64x64, .bf16⟩
  | .hbm, ⟨35, _⟩ => ⟨S64x64, .bf16⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1000000x64, .f32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S64x64, .f32⟩
  | .hbm, ⟨46, _⟩ => ⟨S64x64, .f32⟩
  | .hbm, ⟨47, _⟩ => ⟨S64x64, .bf16⟩
  | .hbm, ⟨48, _⟩ => ⟨S64x64, .bf16⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .bf16⟩
  | .local _ .vmem, ⟨21, _⟩ => ⟨S64x64, .bf16⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem7_1 : DmaSem sig := 26

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1000000x1_S1000000x64_1_0_n_n_0_1_164_wf : GatherDims.WF S100000x64 S1000000x1 S1000000x64 [1] [0] [] [0] [] 1 ![1, 64]
  dot_S5000x64_S64x64_S5000x64_1_0_0_1_n_n_wf : DotDims.WF S5000x64 S64x64 S5000x64 [1] [0] [0] [1] [] []
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S1000000x64.size a
  hwx0_9 : ∀ i : grid0.Coords, EltTy.bits .f32 = 32 ∨ (Rect.block (s := S1000000x64) S5000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S1000000x64.size a
  hwx0_10 : ∀ i : grid0.Coords, EltTy.bits .f32 = 32 ∨ (Rect.block (s := S1000000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_0) S5000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_1) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S192x64 : Shape := ⟨2, ![192, 64]⟩
abbrev S64 : Shape := ⟨1, ![64]⟩
abbrev S128x64 : Shape := ⟨2, ![128, 64]⟩
abbrev S_ : Shape := ⟨0, ![]⟩
abbrev S1000000x1 : Shape := ⟨2, ![1000000, 1]⟩
abbrev S1000000x192 : Shape := ⟨2, ![1000000, 192]⟩
abbrev S1x64 : Shape := ⟨2, ![1, 64]⟩
abbrev S100000x128 : Shape := ⟨2, ![100000, 128]⟩
abbrev S100000 : Shape := ⟨1, ![100000]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S1000000x192, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S100000x64, .f32⟩
  | .hbm, ⟨37, _⟩ => ⟨S1000000x1, .i32⟩
  | .hbm, ⟨38, _⟩ => ⟨S100000x64, .f32⟩
  | .hbm, ⟨39, _⟩ => ⟨S100000x128, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S1000000x64, .f32⟩
  | .hbm, ⟨75, _⟩ => ⟨S_, .f32⟩
  | .hbm, ⟨76, _⟩ => ⟨S1000000, .f32⟩
  | .hbm, ⟨77, _⟩ => ⟨S1000000x1, .f32⟩
  | .hbm, ⟨78, _⟩ => ⟨S_, .f32⟩
  | .hbm, ⟨79, _⟩ => ⟨S1000000x1, .f32⟩
  | .hbm, ⟨80, _⟩ => ⟨S1000000x1, .f32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S1000000, .f32⟩
  | .hbm, ⟨86, _⟩ => ⟨S1000000x1, .f32⟩
  | .hbm, ⟨87, _⟩ => ⟨S_, .f32⟩
  | .hbm, ⟨88, _⟩ => ⟨S1000000x1, .f32⟩
  | .hbm, ⟨89, _⟩ => ⟨S1000000x1, .f32⟩
  | .hbm, ⟨90, _⟩ => ⟨S1000000x64, .f32⟩
  | .hbm, ⟨91, _⟩ => ⟨S1000000x64, .f32⟩
  | .hbm, ⟨92, _⟩ => ⟨S_, .f32⟩
  | .hbm, ⟨93, _⟩ => ⟨S1000000x1, .f32⟩
  | .hbm, ⟨94, _⟩ => ⟨S1000000x1, .f32⟩
  | .hbm, ⟨95, _⟩ => ⟨S1000000x1, .f32⟩
  | .hbm, ⟨96, _⟩ => ⟨S1000000x64, .f32⟩
  | .hbm, ⟨97, _⟩ => ⟨S1000000x64, .f32⟩
  | .hbm, ⟨98, _⟩ => ⟨S1x64, .f32⟩
  | .hbm, ⟨99, _⟩ => ⟨S1000000x64, .f32⟩
  | .hbm, ⟨100, _⟩ => ⟨S1000000x64, .f32⟩
  | .hbm, ⟨101, _⟩ => ⟨S1x64, .f32⟩
  | .hbm, ⟨102, _⟩ => ⟨S1000000x64, .f32⟩
  | .hbm, ⟨103, _⟩ => ⟨S1000000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_cst_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S1000000x64_S1000000_d1 : S1000000x64.ReducesTo [1] S1000000
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  gather_S100000x64_S1000000x1_S1000000x64_1_0_n_n_0_1_164_wf : GatherDims.WF S100000x64 S1000000x1 S1000000x64 [1] [0] [] [0] [] 1 ![1, 64]
  dot_S1000000x192_S192x64_S1000000x64_1_0_0_1_n_n_wf : DotDims.WF S1000000x192 S192x64 S1000000x64 [1] [0] [0] [1] [] []
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with both results named.

  The program is four segments: host operations, the edge region, host operations, the node region.
  The contents of every buffer at each boundary are a fold through the program: a host stretch applies its
  operations, a region replaces its output arrays by what its write-backs leave and keeps every other buffer.
  Every weakly fair execution terminates, without a fault, with every unscoped buffer at the last fold `W4`;
  read at the two result buffers that gives the results, and read at an argument it gives the argument as
  launched (no segment writes one).
-/
import proofs.«107986_j17901423690016_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the program terminates, nothing faulting, with the node result and the edge
    result at the last fold's contents of their buffers and every argument array as launched. -/
theorem run_results : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_v23_1) = W4 m ρ c (Proc.devRef .tc main_v23_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       h c _ (mem_uc main_v23_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.RowSpec.lean ====
/-
  The mathematics of one row of the graph layer, on the extended reals, with no program in sight.

  Both programs update every edge row and every node row by the same rule: a dense layer applied to the
  row's inputs laid side by side, plus a bias; the input row added back; then a layer normalization
  over the row's 64 entries. A dense layer over inputs laid side by side is a sum over the joined axis;
  cutting that axis into its 64-wide pieces turns it into a sum of one contraction per piece. That
  regrouping of a finite sum is the only law that separates the two programs, and it holds in every
  commutative additive monoid, so no entry needs to be finite.
-/
import Idealize.ShloMosaic.PureOps.Ideal
import Mathlib.Algebra.BigOperators.Fin

noncomputable section

namespace Cert.RowSpec

open Idealize.ShloMosaic

/-- The divisor of both means: the float 64. -/
def c64 : EReal := Ideal.ofBits .f32 0x42800000#32

/-- The constant added to the variance before the inverse square root. -/
def epsLN : EReal := Ideal.ofBits .f32 0x358637BD#32

/-- The mean of a row of 64 entries: their sum divided by 64. -/
def rowMean (x : Fin 64 → EReal) : EReal := Ideal.div (∑ k : Fin 64, x k) c64

/-- Layer normalization of a row: centre it at its mean, scale by the inverse square root of the
    mean squared deviation plus `epsLN`, then apply the per-column scale and bias. -/
def layerNorm (x sc bi : Fin 64 → EReal) (j : Fin 64) : EReal :=
  ((x j - rowMean x) * Ideal.rsqrt (rowMean (fun k => (x k - rowMean x) * (x k - rowMean x)) + epsLN)) * sc j + bi j

/-- A dense layer over three 64-wide input rows, one weight block per row, plus a bias: entry `j`. -/
def dense3 (e s r : Fin 64 → EReal) (w0 w1 w2 : Fin 64 → Fin 64 → EReal) (b : Fin 64 → EReal) (j : Fin 64) : EReal :=
  (((∑ k : Fin 64, e k * w0 k j) + (∑ k : Fin 64, s k * w1 k j)) + (∑ k : Fin 64, r k * w2 k j)) + b j

/-- A dense layer over two 64-wide input rows, one weight block per row, plus a bias: entry `j`. -/
def dense2 (n a : Fin 64 → EReal) (w0 w1 : Fin 64 → Fin 64 → EReal) (b : Fin 64 → EReal) (j : Fin 64) : EReal :=
  ((∑ k : Fin 64, n k * w0 k j) + (∑ k : Fin 64, a k * w1 k j)) + b j

/-- A sum over 192 consecutive terms is the sum of its three 64-term thirds. -/
theorem sum_split3 {M : Type*} [AddCommMonoid M] (f : Fin 192 → M) :
    ∑ k : Fin 192, f k
      = ((∑ k : Fin 64, f ⟨k.val, by omega⟩) + (∑ k : Fin 64, f ⟨64 + k.val, by omega⟩))
        + (∑ k : Fin 64, f ⟨128 + k.val, by omega⟩) := by
  have h1 := Fin.sum_univ_add (a := 128) (b := 64) f
  have h2 := Fin.sum_univ_add (a := 64) (b := 64) (fun i : Fin (64 + 64) => f (Fin.castAdd 64 i))
  rw [show (∑ k : Fin 192, f k) = _ from h1, h2]
  rfl

/-- A sum over 128 consecutive terms is the sum of its two 64-term halves. -/
theorem sum_split2 {M : Type*} [AddCommMonoid M] (f : Fin 128 → M) :
    ∑ k : Fin 128, f k
      = (∑ k : Fin 64, f ⟨k.val, by omega⟩) + (∑ k : Fin 64, f ⟨64 + k.val, by omega⟩) := by
  have h1 := Fin.sum_univ_add (a := 64) (b := 64) f
  rw [show (∑ k : Fin 128, f k) = _ from h1]
  rfl

end Cert.RowSpec

end
-- ==== Proof.HostReads.lean ====
/-
  What each region finds in its buffers, as functions of the argument arrays.

  Before the edge region the host gathers the node rows of every edge's sender and receiver (the same gather,
  on the same indices, as the reference's), cuts the edge weights into three 64-row blocks, and lays each
  64-vector out as one row. Between the regions it sums the new edge rows into their receiver nodes from
  zero, cuts the node weights into two blocks and lays the node vectors out as rows. A change of float format
  is the identity on the extended reals, so a weight block is just a band of rows of the weights. An argument
  array is written by nothing, so each region finds it as launched.
-/
import proofs.«107986_j17901423690016_2_alg».proof.Proof.Gen.KernelIdeal.Frame
import proofs.«107986_j17901423690016_2_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## What the edge region finds: the buffers after the first host stretch -/

/-- The edge array is an argument: no host operation writes it. -/
theorem V1_arg1 (c : Dev nD) : (V1 m ρ c main_arg1 : S1000000x64.Idx → EReal) = m ((c : Thread nD τ).loc main_arg1) := by
  show StableHlo.after hostOps0 (W0 m ρ c) (Proc.devRef .tc main_arg1) = _
  after_results

/-- The sender rows: the node array gathered at the senders (negative indices wrapped first), the very
    operations the reference applies. -/
theorem V1_v6 (c : Dev nD) : (V1 m ρ c main_v6 : S1000000x64.Idx → EReal)
    = Cert.ReferenceIdeal.Read.val_main_v6 (F := Ideal) (m ((c : Thread nD τ).loc main_arg0)) (m ((c : Thread nD τ).loc main_arg2)) := by
  show StableHlo.after hostOps0 (W0 m ρ c) (Proc.devRef .tc main_v6) = _
  after_results
  rfl

/-- The receiver rows, likewise. -/
theorem V1_v13 (c : Dev nD) : (V1 m ρ c main_v13 : S1000000x64.Idx → EReal)
    = Cert.ReferenceIdeal.Read.val_main_v13 (F := Ideal) (m ((c : Thread nD τ).loc main_arg0)) (m ((c : Thread nD τ).loc main_arg3)) := by
  show StableHlo.after hostOps0 (W0 m ρ c) (Proc.devRef .tc main_v13) = _
  after_results
  rfl

/-- The first weight block is rows 0 … 63 of the edge weights (the change of float format is the identity). -/
theorem V1_v17_apply (c : Dev nD) (k j : Fin 64) : (V1 m ρ c main_v17 : S64x64.Idx → EReal) (ix2 k j)
    = m ((c : Thread nD τ).loc main_arg4) (ix2 (⟨k.val, by omega⟩ : Fin 192) j) := by
  show StableHlo.after hostOps0 (W0 m ρ c) (Proc.devRef .tc main_v17) (ix2 k j) = _
  after_results
  show extractStridedSlice S64x64 ![0, 0] (W0 m ρ c (Proc.devRef .tc main_arg4)) slices_S192x64_S64x64_0_0 (ix2 k j) = _
  exact slice2_axis0_apply 0 _ _ k j _ (by show k.val = 0 + k.val; omega)

/-- The second weight block is rows 64 … 127. -/
theorem V1_v18_apply (c : Dev nD) (k j : Fin 64) : (V1 m ρ c main_v18 : S64x64.Idx → EReal) (ix2 k j)
    = m ((c : Thread nD τ).loc main_arg4) (ix2 (⟨64 + k.val, by omega⟩ : Fin 192) j) := by
  show StableHlo.after hostOps0 (W0 m ρ c) (Proc.devRef .tc main_v18) (ix2 k j) = _
  after_results
  show extractStridedSlice S64x64 ![64, 0] (W0 m ρ c (Proc.devRef .tc main_arg4)) slices_S192x64_S64x64_64_0 (ix2 k j) = _
  exact slice2_axis0_apply 64 _ _ k j _ rfl

/-- The third weight block is rows 128 … 191. -/
theorem V1_v19_apply (c : Dev nD) (k j : Fin 64) : (V1 m ρ c main_v19 : S64x64.Idx → EReal) (ix2 k j)
    = m ((c : Thread nD τ).loc main_arg4) (ix2 (⟨128 + k.val, by omega⟩ : Fin 192) j) := by
  show StableHlo.after hostOps0 (W0 m ρ c) (Proc.devRef .tc main_v19) (ix2 k j) = _
  after_results
  show extractStridedSlice S64x64 ![128, 0] (W0 m ρ c (Proc.devRef .tc main_arg4)) slices_S192x64_S64x64_128_0 (ix2 k j) = _
  exact slice2_axis0_apply 128 _ _ k j _ rfl

/-- The edge bias as one row. -/
theorem V1_v20_apply (c : Dev nD) (u : Fin 1) (j : Fin 64) : (V1 m ρ c main_v20 : S1x64.Idx → EReal) (ix2 u j)
    = m ((c : Thread nD τ).loc main_arg5) (ix1 j) := by
  show StableHlo.after hostOps0 (W0 m ρ c) (Proc.devRef .tc main_v20) (ix2 u j) = _
  after_results
  exact shapeCast_a_1a_apply _ _ u j

/-- The edge normalization's scale as one row. -/
theorem V1_v21_apply (c : Dev nD) (u : Fin 1) (j : Fin 64) : (V1 m ρ c main_v21 : S1x64.Idx → EReal) (ix2 u j)
    = m ((c : Thread nD τ).loc main_arg10) (ix1 j) := by
  show StableHlo.after hostOps0 (W0 m ρ c) (Proc.devRef .tc main_v21) (ix2 u j) = _
  after_results
  exact shapeCast_a_1a_apply _ _ u j

/-- The edge normalization's bias as one row. -/
theorem V1_v22_apply (c : Dev nD) (u : Fin 1) (j : Fin 64) : (V1 m ρ c main_v22 : S1x64.Idx → EReal) (ix2 u j)
    = m ((c : Thread nD τ).loc main_arg11) (ix1 j) := by
  show StableHlo.after hostOps0 (W0 m ρ c) (Proc.devRef .tc main_v22) (ix2 u j) = _
  after_results
  exact shapeCast_a_1a_apply _ _ u j

/-! ## What the node region finds: the buffers after the edge region and the second host stretch

    An argument that the edge region does not stage is untouched by it and by the first stretch. -/

theorem W2_arg0 (c : Dev nD) : (W2 m ρ c (Proc.devRef .tc main_arg0) : S100000x64.Idx → EReal) = m ((c : Thread nD τ).loc main_arg0) :=
  (W2_of_ne m ρ c main_arg0 (by decide)).trans (by
    show StableHlo.after hostOps0 (W0 m ρ c) (Proc.devRef .tc main_arg0) = _
    after_results)

theorem W2_arg3 (c : Dev nD) : (W2 m ρ c (Proc.devRef .tc main_arg3) : S1000000.Idx → BitVec 32) = m ((c : Thread nD τ).loc main_arg3) :=
  (W2_of_ne m ρ c main_arg3 (by decide)).trans (by
    show StableHlo.after hostOps0 (W0 m ρ c) (Proc.devRef .tc main_arg3) = _
    after_results)

theorem W2_arg6 (c : Dev nD) : (W2 m ρ c (Proc.devRef .tc main_arg6) : S128x64.Idx → EReal) = m ((c : Thread nD τ).loc main_arg6) :=
  (W2_of_ne m ρ c main_arg6 (by decide)).trans (by
    show StableHlo.after hostOps0 (W0 m ρ c) (Proc.devRef .tc main_arg6) = _
    after_results)

theorem W2_arg7 (c : Dev nD) : (W2 m ρ c (Proc.devRef .tc main_arg7) : S64.Idx → EReal) = m ((c : Thread nD τ).loc main_arg7) :=
  (W2_of_ne m ρ c main_arg7 (by decide)).trans (by
    show StableHlo.after hostOps0 (W0 m ρ c) (Proc.devRef .tc main_arg7) = _
    after_results)

theorem W2_arg8 (c : Dev nD) : (W2 m ρ c (Proc.devRef .tc main_arg8) : S64.Idx → EReal) = m ((c : Thread nD τ).loc main_arg8) :=
  (W2_of_ne m ρ c main_arg8 (by decide)).trans (by
    show StableHlo.after hostOps0 (W0 m ρ c) (Proc.devRef .tc main_arg8) = _
    after_results)

theorem W2_arg9 (c : Dev nD) : (W2 m ρ c (Proc.devRef .tc main_arg9) : S64.Idx → EReal) = m ((c : Thread nD τ).loc main_arg9) :=
  (W2_of_ne m ρ c main_arg9 (by decide)).trans (by
    show StableHlo.after hostOps0 (W0 m ρ c) (Proc.devRef .tc main_arg9) = _
    after_results)

/-- The node array is an argument: the node region finds it as launched. -/
theorem V3_arg0 (c : Dev nD) : (V3 m ρ c main_arg0 : S100000x64.Idx → EReal) = m ((c : Thread nD τ).loc main_arg0) := by
  show StableHlo.after hostOps1 (W2 m ρ c) (Proc.devRef .tc main_arg0) = _
  after_results
  exact W2_arg0 m ρ c

/-- The summed incoming edges: the new edge rows, as the edge region left them, added into their receiver
    nodes from zero. -/
theorem V3_v26 (c : Dev nD) (NE : S1000000x64.Idx → EReal) (hNE : W2 m ρ c (Proc.devRef .tc main_v23_0) = NE) :
    (V3 m ρ c main_v26 : S100000x64.Idx → EReal)
      = Host.scatterAdd (F := Ideal) scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (m ((c : Thread nD τ).loc main_arg3)))
          NE := by
  show StableHlo.after hostOps1 (W2 m ρ c) (Proc.devRef .tc main_v26) = _
  after_results
  rw [W2_arg3 m ρ c, hNE]

/-- The first node weight block is rows 0 … 63 of the node weights. -/
theorem V3_v29_apply (c : Dev nD) (k j : Fin 64) : (V3 m ρ c main_v29 : S64x64.Idx → EReal) (ix2 k j)
    = m ((c : Thread nD τ).loc main_arg6) (ix2 (⟨k.val, by omega⟩ : Fin 128) j) := by
  show StableHlo.after hostOps1 (W2 m ρ c) (Proc.devRef .tc main_v29) (ix2 k j) = _
  after_results
  rw [W2_arg6 m ρ c]
  show extractStridedSlice S64x64 ![0, 0] (m ((c : Thread nD τ).loc main_arg6)) slices_S128x64_S64x64_0_0 (ix2 k j) = _
  exact slice2_axis0_apply 0 _ _ k j _ (by show k.val = 0 + k.val; omega)

/-- The second node weight block is rows 64 … 127. -/
theorem V3_v30_apply (c : Dev nD) (k j : Fin 64) : (V3 m ρ c main_v30 : S64x64.Idx → EReal) (ix2 k j)
    = m ((c : Thread nD τ).loc main_arg6) (ix2 (⟨64 + k.val, by omega⟩ : Fin 128) j) := by
  show StableHlo.after hostOps1 (W2 m ρ c) (Proc.devRef .tc main_v30) (ix2 k j) = _
  after_results
  rw [W2_arg6 m ρ c]
  show extractStridedSlice S64x64 ![64, 0] (m ((c : Thread nD τ).loc main_arg6)) slices_S128x64_S64x64_64_0 (ix2 k j) = _
  exact slice2_axis0_apply 64 _ _ k j _ rfl

/-- The node bias as one row. -/
theorem V3_v31_apply (c : Dev nD) (u : Fin 1) (j : Fin 64) : (V3 m ρ c main_v31 : S1x64.Idx → EReal) (ix2 u j)
    = m ((c : Thread nD τ).loc main_arg7) (ix1 j) := by
  show StableHlo.after hostOps1 (W2 m ρ c) (Proc.devRef .tc main_v31) (ix2 u j) = _
  after_results
  rw [W2_arg7 m ρ c]
  exact shapeCast_a_1a_apply _ _ u j

/-- The node normalization's scale as one row. -/
theorem V3_v32_apply (c : Dev nD) (u : Fin 1) (j : Fin 64) : (V3 m ρ c main_v32 : S1x64.Idx → EReal) (ix2 u j)
    = m ((c : Thread nD τ).loc main_arg8) (ix1 j) := by
  show StableHlo.after hostOps1 (W2 m ρ c) (Proc.devRef .tc main_v32) (ix2 u j) = _
  after_results
  rw [W2_arg8 m ρ c]
  exact shapeCast_a_1a_apply _ _ u j

/-- The node normalization's bias as one row. -/
theorem V3_v33_apply (c : Dev nD) (u : Fin 1) (j : Fin 64) : (V3 m ρ c main_v33 : S1x64.Idx → EReal) (ix2 u j)
    = m ((c : Thread nD τ).loc main_arg9) (ix1 j) := by
  show StableHlo.after hostOps1 (W2 m ρ c) (Proc.devRef .tc main_v33) (ix2 u j) = _
  after_results
  rw [W2_arg9 m ρ c]
  exact shapeCast_a_1a_apply _ _ u j

end Cert.KernelIdeal.HostReads

end
-- ==== Proof.EdgeBlock.lean ====
/-
  The edge body of the graph layer, read at one entry of a block of edge rows, on the extended reals.

  A body works on a block of rows at a time, yet each of its operations is entrywise, acts along one
  row, or repeats a row or a column, so the value at entry `(p, q)` of its result depends on row `p`
  of the inputs alone. This module says which function of that row it is: the new edge row is a dense
  layer over the three 64-wide input rows plus a bias, and the stored row is the layer normalization of
  the new row plus the old one. A change of float format is the identity on the extended reals, so the
  narrowing of the operands before each product leaves no trace.
-/
import proofs.«107986_j17901423690016_2_alg».proof.Proof.Gen.KernelIdeal.Skeleton
import proofs.«107986_j17901423690016_2_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EdgeBlock

open Idealize.ShloMosaic Idealize.ShloMosaic.ValueIdx Cert.KernelIdeal Cert.KernelIdeal.Gen Cert.RowSpec

/-! ## Reading one entry of a block with `n` rows of 64 entries

Every operation of the two bodies acts entrywise, along a row, or by repeating a row or a column. The
lemmas of this section read each of them at the entry `(p, q)` of a block of `n` rows; the number of
rows never matters. -/

section Rows

variable {n : Nat}

/-- A product of an `n × 64` block with a `64 × 64` block, accumulated into zero, reads at `(p, q)` the
    contraction of row `p` of the first with column `q` of the second. The dimension numbers enter only
    through the coordinates of the two operand indices, taken as hypotheses. -/
theorem matmul_zero_apply (D : DotDims ⟨2, ![n, 64]⟩ ⟨2, ![64, 64]⟩ ⟨2, ![n, 64]⟩)
    (hr : D.contr.rank = 1) (hs : D.contr.size ⟨0, by omega⟩ = 64)
    (hl0 : ∀ (j : (⟨2, ![n, 64]⟩ : Shape).Idx) (c : D.contr.Idx), (D.lhsIdx j c 0).val = (j 0).val)
    (hl1 : ∀ (j : (⟨2, ![n, 64]⟩ : Shape).Idx) (c : D.contr.Idx), (D.lhsIdx j c 1).val = (c ⟨0, by omega⟩).val)
    (hr0 : ∀ (j : (⟨2, ![n, 64]⟩ : Shape).Idx) (c : D.contr.Idx), (D.rhsIdx j c 0).val = (c ⟨0, by omega⟩).val)
    (hr1 : ∀ (j : (⟨2, ![n, 64]⟩ : Shape).Idx) (c : D.contr.Idx), (D.rhsIdx j c 1).val = (j 1).val)
    (l : FVec Ideal ⟨2, ![n, 64]⟩ .bf16) (r : FVec Ideal ⟨2, ![64, 64]⟩ .bf16) (p : Fin n) (q : Fin 64) :
    FloatOps.matmul D none l r (constant ⟨2, ![n, 64]⟩ .f32 0x00000000#32) (ix2 p q)
      = ∑ k : Fin 64, l (ix2 p k) * r (ix2 k q) := by
  rw [Ideal.matmul_constant_zero_apply, ← Equiv.sum_comp (contrEquiv1 D 64 hr hs).symm]
  refine Finset.sum_congr rfl fun k _ => ?_
  have hk := contrEquiv1_symm_val D 64 hr hs k
  have el : D.lhsIdx (ix2 p q) ((contrEquiv1 D 64 hr hs).symm k) = ix2 p k := funext fun a => Fin.ext (by
    match a with
    | ⟨0, _⟩ => exact hl0 _ _
    | ⟨1, _⟩ => exact (hl1 _ _).trans hk)
  have er : D.rhsIdx (ix2 p q) ((contrEquiv1 D 64 hr hs).symm k) = ix2 k q := funext fun a => Fin.ext (by
    match a with
    | ⟨0, _⟩ => exact (hr0 _ _).trans hk
    | ⟨1, _⟩ => exact hr1 _ _)
  rw [el, er]

/-- The sum of an `n × 64` block along its rows reads, at row `p`, the sum of the 64 entries of that row. -/
theorem rowSum_apply (src : FVec Ideal ⟨2, ![n, 64]⟩ .f32) (h : (⟨2, ![n, 64]⟩ : Shape).Reduces [1] ⟨1, ![n]⟩)
    (hφ : FKind.Formats .f32) (hacc : (0x00000000#32 : BitVec 32) = 0x00000000#32) (p : Fin n) :
    multiReduction (F := Ideal) .add [1] ⟨1, ![n]⟩ src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-- A vector of `n` entries viewed as a column `n × 1` reads, at `(p, u)`, its entry `p`. -/
theorem colCast_apply {α : Type} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `n × 1` repeated over 64 columns reads, at `(p, q)`, the column's entry `p`. -/
theorem colBroadcast_apply {α : Type} (v : (⟨2, ![n, 1]⟩ : Shape).Idx → α)
    (h : (⟨2, ![n, 1]⟩ : Shape).Broadcasts ⟨2, ![n, 64]⟩) (p : Fin n) (q : Fin 64) :
    broadcastTo ⟨2, ![n, 64]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

end Rows

/-! ## Layer normalization of a block, read at one entry -/

section Norm

variable {n : Nat}

/-- An inverse square root taken entrywise reads, at an index, the inverse square root of the entry. -/
theorem rsqrt_apply {s : Shape} {φ : FTy} (a : FVec Ideal s φ) (i : s.Idx) :
    Idealize.ShloMosaic.rsqrt a i = Ideal.rsqrt (a i) := rfl

/-- The mean of each row of an `n × 64` block, kept as a column: the row sums, viewed as a column and divided by
    the float 64, read at `(p, u)` the mean of row `p`. -/
theorem meanCol_apply (v : FVec Ideal ⟨2, ![n, 64]⟩ .f32) (hR : (⟨2, ![n, 64]⟩ : Shape).Reduces [1] ⟨1, ![n]⟩)
    (hC : (⟨1, ![n]⟩ : Shape).ShapeCasts ⟨2, ![n, 1]⟩) (hφ : FKind.Formats .f32)
    (hacc : (0x00000000#32 : BitVec 32) = 0x00000000#32) (p : Fin n) (u : Fin 1) :
    (divf (shapeCast ⟨2, ![n, 1]⟩ (multiReduction (F := Ideal) .add [1] ⟨1, ![n]⟩ v 0x00000000#32 hR hφ hacc) hC) (broadcast ⟨2, ![n, 1]⟩ (Scalar.ofBits (F := Ideal) .f32 0x42800000#32))) (ix2 p u) = rowMean (fun k => v (ix2 p k)) := by
  refine (divf_apply _ _ _).trans ?_
  unfold rowMean
  refine congrArg₂ Ideal.div ?_ rfl
  exact (colCast_apply _ hC p u).trans (rowSum_apply v hR hφ hacc p)

/-- A block minus a column repeated over the 64 columns reads, at `(p, q)`, the entry minus the column's entry `p`. -/
theorem centre_apply (v : FVec Ideal ⟨2, ![n, 64]⟩ .f32) (m : FVec Ideal ⟨2, ![n, 1]⟩ .f32)
    (hB : (⟨2, ![n, 1]⟩ : Shape).Broadcasts ⟨2, ![n, 64]⟩) (p : Fin n) (q : Fin 64) :
    subf v (broadcastTo ⟨2, ![n, 64]⟩ m hB) (ix2 p q) = v (ix2 p q) - m (ix2 p (0 : Fin 1)) :=
  (subf_apply _ _ _).trans (congrArg (v (ix2 p q) - ·) (colBroadcast_apply m hB p q))

/-- The last steps of the normalization over any mean column `m` and any column `w` of mean squared deviations:
    centre, scale by the inverse square root of `w` plus the small constant, then apply the scale row and the bias row. -/
theorem scale_apply (v : FVec Ideal ⟨2, ![n, 64]⟩ .f32) (m w : FVec Ideal ⟨2, ![n, 1]⟩ .f32)
    (sc bi : FVec Ideal ⟨2, ![1, 64]⟩ .f32) (hB : (⟨2, ![n, 1]⟩ : Shape).Broadcasts ⟨2, ![n, 64]⟩)
    (hB1 : (⟨2, ![1, 64]⟩ : Shape).Broadcasts ⟨2, ![n, 64]⟩) (p : Fin n) (q : Fin 64) :
    addf (mulf (mulf (subf v (broadcastTo ⟨2, ![n, 64]⟩ m hB))
          (broadcastTo ⟨2, ![n, 64]⟩ (Idealize.ShloMosaic.rsqrt (addf w (broadcast ⟨2, ![n, 1]⟩ (Scalar.ofBits (F := Ideal) .f32 0x358637BD#32)))) hB))
        (broadcastTo ⟨2, ![n, 64]⟩ sc hB1)) (broadcastTo ⟨2, ![n, 64]⟩ bi hB1) (ix2 p q)
      = ((v (ix2 p q) - m (ix2 p (0 : Fin 1))) * Ideal.rsqrt (w (ix2 p (0 : Fin 1)) + epsLN)) * sc (ix2 (0 : Fin 1) q)
        + bi (ix2 (0 : Fin 1) q) := by
  refine (addf_apply _ _ _).trans (congrArg₂ (· + ·) ?_ (broadcastTo_1b_ab_apply bi hB1 p q))
  refine (mulf_apply _ _ _).trans (congrArg₂ (· * ·) ?_ (broadcastTo_1b_ab_apply sc hB1 p q))
  refine (mulf_apply _ _ _).trans (congrArg₂ (· * ·) (centre_apply v m hB p q) ?_)
  refine (colBroadcast_apply _ hB p q).trans ?_
  refine (rsqrt_apply _ _).trans (congrArg Ideal.rsqrt ?_)
  exact (addf_apply _ _ _).trans rfl

/-- THE NORMALIZED BLOCK AT ONE ENTRY. The mean column of the block, the column of mean squared deviations from it,
    and the scaling by their inverse square root, the scale row and the bias row: at `(p, q)` the whole chain is the
    layer normalization of row `p`, entry `q`. -/
theorem layerNorm_block_apply (v : FVec Ideal ⟨2, ![n, 64]⟩ .f32) (sc bi : FVec Ideal ⟨2, ![1, 64]⟩ .f32)
    (hR : (⟨2, ![n, 64]⟩ : Shape).Reduces [1] ⟨1, ![n]⟩) (hC : (⟨1, ![n]⟩ : Shape).ShapeCasts ⟨2, ![n, 1]⟩)
    (hB : (⟨2, ![n, 1]⟩ : Shape).Broadcasts ⟨2, ![n, 64]⟩) (hB1 : (⟨2, ![1, 64]⟩ : Shape).Broadcasts ⟨2, ![n, 64]⟩)
    (hφ : FKind.Formats .f32) (hacc : (0x00000000#32 : BitVec 32) = 0x00000000#32) (p : Fin n) (q : Fin 64) :
    addf (mulf (mulf (subf v (broadcastTo ⟨2, ![n, 64]⟩ (divf (shapeCast ⟨2, ![n, 1]⟩ (multiReduction (F := Ideal) .add [1] ⟨1, ![n]⟩ v 0x00000000#32 hR hφ hacc) hC) (broadcast ⟨2, ![n, 1]⟩ (Scalar.ofBits (F := Ideal) .f32 0x42800000#32))) hB))
          (broadcastTo ⟨2, ![n, 64]⟩ (Idealize.ShloMosaic.rsqrt (addf (divf (shapeCast ⟨2, ![n, 1]⟩ (multiReduction (F := Ideal) .add [1] ⟨1, ![n]⟩ (mulf (subf v (broadcastTo ⟨2, ![n, 64]⟩ (divf (shapeCast ⟨2, ![n, 1]⟩ (multiReduction (F := Ideal) .add [1] ⟨1, ![n]⟩ v 0x00000000#32 hR hφ hacc) hC) (broadcast ⟨2, ![n, 1]⟩ (Scalar.ofBits (F := Ideal) .f32 0x42800000#32))) hB)) (subf v (broadcastTo ⟨2, ![n, 64]⟩ (divf (shapeCast ⟨2, ![n, 1]⟩ (multiReduction (F := Ideal) .add [1] ⟨1, ![n]⟩ v 0x00000000#32 hR hφ hacc) hC) (broadcast ⟨2, ![n, 1]⟩ (Scalar.ofBits (F := Ideal) .f32 0x42800000#32))) hB))) 0x00000000#32 hR hφ hacc) hC) (broadcast ⟨2, ![n, 1]⟩ (Scalar.ofBits (F := Ideal) .f32 0x42800000#32))) (broadcast ⟨2, ![n, 1]⟩ (Scalar.ofBits (F := Ideal) .f32 0x358637BD#32)))) hB))
        (broadcastTo ⟨2, ![n, 64]⟩ sc hB1)) (broadcastTo ⟨2, ![n, 64]⟩ bi hB1) (ix2 p q)
      = layerNorm (fun k => v (ix2 p k)) (fun j => sc (ix2 (0 : Fin 1) j)) (fun j => bi (ix2 (0 : Fin 1) j)) q := by
  refine (scale_apply v _ _ sc bi hB hB1 p q).trans ?_
  have hm : ∀ u : Fin 1, (divf (shapeCast ⟨2, ![n, 1]⟩ (multiReduction (F := Ideal) .add [1] ⟨1, ![n]⟩ v 0x00000000#32 hR hφ hacc) hC) (broadcast ⟨2, ![n, 1]⟩ (Scalar.ofBits (F := Ideal) .f32 0x42800000#32))) (ix2 p u) = rowMean (fun k => v (ix2 p k)) :=
    fun u => meanCol_apply v hR hC hφ hacc p u
  unfold layerNorm
  refine congrArg₂ (· + ·) (congrArg₂ (· * ·) (congrArg₂ (· * ·) (congrArg (v (ix2 p q) - ·) (hm 0)) (congrArg Ideal.rsqrt (congrArg (· + epsLN) ?_))) rfl) rfl
  refine (meanCol_apply _ hR hC hφ hacc p 0).trans (congrArg rowMean (funext fun k => ?_))
  refine (mulf_apply _ _ _).trans ?_
  have hc := (centre_apply v _ hB p k).trans (congrArg (v (ix2 p k) - ·) (hm 0))
  exact congrArg₂ (· * ·) hc hc

end Norm

/-! ## The dimension numbers of the body's three products

Each contracts axis 1 of the `5000 × 64` operand with axis 0 of the `64 × 64` one, with no batch axis:
the left index at output `(r, c)` and contraction position `k` is `(r, k)`, the right one `(k, c)`. -/

theorem dot_lhs0 (j : S5000x64.Idx) (c : dot_S5000x64_S64x64_S5000x64_1_0_0_1_n_n.contr.Idx) :
    (dot_S5000x64_S64x64_S5000x64_1_0_0_1_n_n.lhsIdx j c 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem dot_lhs1 (j : S5000x64.Idx) (c : dot_S5000x64_S64x64_S5000x64_1_0_0_1_n_n.contr.Idx) :
    (dot_S5000x64_S64x64_S5000x64_1_0_0_1_n_n.lhsIdx j c 1).val = (c ⟨0, by decide⟩).val :=
  dot_S5000x64_S64x64_S5000x64_1_0_0_1_n_n.lhsIdx_val_of_single rfl j c

theorem dot_rhs0 (j : S5000x64.Idx) (c : dot_S5000x64_S64x64_S5000x64_1_0_0_1_n_n.contr.Idx) :
    (dot_S5000x64_S64x64_S5000x64_1_0_0_1_n_n.rhsIdx j c 0).val = (c ⟨0, by decide⟩).val :=
  dot_S5000x64_S64x64_S5000x64_1_0_0_1_n_n.rhsIdx_val_of_single rfl j c

theorem dot_rhs1 (j : S5000x64.Idx) (c : dot_S5000x64_S64x64_S5000x64_1_0_0_1_n_n.contr.Idx) :
    (dot_S5000x64_S64x64_S5000x64_1_0_0_1_n_n.rhsIdx j c 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- One product of the body read at `(p, q)`: the 64-term contraction. -/
theorem dot_apply (l : FVec Ideal S5000x64 .bf16) (r : FVec Ideal S64x64 .bf16) (p : Fin 5000) (q : Fin 64) :
    FloatOps.matmul dot_S5000x64_S64x64_S5000x64_1_0_0_1_n_n none l r (constant S5000x64 .f32 0x00000000#32) (ix2 p q)
      = ∑ k : Fin 64, l (ix2 p k) * r (ix2 k q) :=
  matmul_zero_apply dot_S5000x64_S64x64_S5000x64_1_0_0_1_n_n rfl rfl dot_lhs0 dot_lhs1 dot_rhs0 dot_rhs1 l r p q

/-! ## The edge body -/

/-- the new edge row: three 64-wide contractions (the casts to the narrow float format are the identity here) added up, plus the bias row -/
theorem newEdge_apply (x0 x1 x2 : Vec Ideal S5000x64 .f32) (x3 x4 x5 : Vec Ideal S64x64 .bf16) (x6 : Vec Ideal S1x64 .f32) (p : Fin 5000) (q : Fin 64) :
    k0_pay2 (F := Ideal) x0 x1 x2 x3 x4 x5 x6 (ix2 p q)
      = dense3 (fun k => x0 (ix2 p k)) (fun k => x1 (ix2 p k)) (fun k => x2 (ix2 p k))
          (fun k j => x3 (ix2 k j)) (fun k j => x4 (ix2 k j)) (fun k j => x5 (ix2 k j))
          (fun j => x6 (ix2 (0 : Fin 1) j)) q := by
  unfold k0_pay2 dense3
  simp only [shapeCast_self, addf_apply]
  refine congrArg₂ (· + ·) (congrArg₂ (· + ·) (congrArg₂ (· + ·) ?_ ?_) ?_) ?_
  · exact dot_apply _ _ p q
  · exact dot_apply _ _ p q
  · exact dot_apply _ _ p q
  · exact broadcastTo_1b_ab_apply _ _ p q

/-- the normalized edge row: layer normalization of (new edge row + old edge row) -/
theorem edgeOut_apply (x0 x1 x2 : Vec Ideal S5000x64 .f32) (x3 x4 x5 : Vec Ideal S64x64 .bf16) (x6 x7 x8 : Vec Ideal S1x64 .f32) (p : Fin 5000) (q : Fin 64) :
    k0_pay1 (F := Ideal) (k0_pay3 x0 x1 x2 x3 x4 x5 x6) (k0_pay4 x0 x1 x2 x3 x4 x5 x6) (k0_pay5 x0 x1 x2 x3 x4 x5 x6) (k0_pay6 (F := Ideal)) x7 x8 (ix2 p q)
      = layerNorm (fun k => k0_pay2 (F := Ideal) x0 x1 x2 x3 x4 x5 x6 (ix2 p k) + x0 (ix2 p k))
          (fun j => x7 (ix2 (0 : Fin 1) j)) (fun j => x8 (ix2 (0 : Fin 1) j)) q := by
  unfold k0_pay1 k0_pay5 k0_pay4 k0_pay6
  simp only [shapeCast_self]
  -- the block being normalized is (new edge rows + old edge rows), whose entry is the sum of the two entries
  exact (layerNorm_block_apply (k0_pay3 x0 x1 x2 x3 x4 x5 x6) x7 x8 _ _ _ _ _ _ p q).trans rfl

end Cert.KernelIdeal.EdgeBlock

end
-- ==== Proof.RefRows.lean ====
/-
  The reference program read one row at a time.

  The reference computes, for every edge, a dense layer over the edge's row laid beside the rows of its
  two end nodes, adds the edge's row back and normalizes the result over its 64 entries; it then sums the
  new edge rows into their receiving nodes and does the same for every node with the node's row laid beside
  that sum. Read at one entry, each stage depends only on the entries of one row of its operands, so the
  whole program at row `i`, column `j` is the row rule of `RowSpec` applied to row `i` of the
  operands. The two gathers and the scatter-add are left as they are: only their rows enter.

  The steps: a broadcast of a per-row scalar along the row reads that scalar; a sum along the row read
  from the zero initial value is the bare sum; a dense layer over rows laid side by side is a sum over
  the joined axis, cut into its 64-wide pieces, each piece reading one of the joined rows.
-/
import proofs.«107986_j17901423690016_2_alg».proof.Proof.Gen.ReferenceIdeal.Read
import proofs.«107986_j17901423690016_2_alg».proof.Proof.RowSpec
import Idealize.ShloMosaic.Lib.ValueIdx
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read Cert.RowSpec

/-! ## The layer normalization as the program spells it

The program's mean is the row's sum, started from the float zero, divided by the float 64; its variance
is the same mean of the squared deviations. Started from zero the sum is the bare sum, so this is the
layer normalization of `RowSpec`. -/

/-- The row's mean as the program computes it: zero plus the sum, over 64. -/
def progMean (x : Fin 64 → EReal) : EReal :=
  Ideal.div (Ideal.ofBits .f32 0x00000000#32 + ∑ k : Fin 64, x k) (Ideal.ofBits .f32 0x42800000#32)

theorem progMean_eq (x : Fin 64 → EReal) : progMean x = rowMean x := by
  unfold progMean rowMean c64
  rw [Ideal.ofBits_zero_f32, zero_add]

/-- The program's spelling of a normalized entry is the layer normalization of the row. -/
theorem layerNorm_of_prog (x sc bi : Fin 64 → EReal) (j : Fin 64) :
    ((x j - progMean x)
        * Ideal.rsqrt (progMean (fun k => (x k - progMean x) * (x k - progMean x)) + Ideal.ofBits .f32 0x358637BD#32))
      * sc j + bi j = layerNorm x sc bi j := by
  unfold layerNorm epsLN
  simp only [progMean_eq]

/-! ## The edge rows: stages 52 to 76 -/

section Edge

variable (x0 : (⟨S100000x64, .f32⟩ : BufTy).Contents (Elt Ideal)) (x1 : (⟨S1000000x64, .f32⟩ : BufTy).Contents (Elt Ideal))
  (x2 x3 : (⟨S1000000, .i32⟩ : BufTy).Contents (Elt Ideal)) (x4 : (⟨S192x64, .f32⟩ : BufTy).Contents (Elt Ideal))
  (x5 : (⟨S64, .f32⟩ : BufTy).Contents (Elt Ideal))

/-- The edge row being normalized: the new edge row plus the old one (stage 52), row `i`. -/
def edgeIn (i : Fin 1000000) (k : Fin 64) : EReal :=
  val_main_v52 (F := Ideal) x0 x1 x2 x3 x4 x5 (ix2 i k)

/-- The per-row mean (a one-column array) at row `i` is the program's mean of row `i`: the column
    broadcast of the row sums reads the sum of row `i`, the divisor is the splat of 64. -/
theorem edge_mean (i : Fin 1000000) :
    val_main_v56 (F := Ideal) x0 x1 x2 x3 x4 x5 (ix2 i (⟨0, Nat.one_pos⟩ : Fin 1)) = progMean (edgeIn x0 x1 x2 x3 x4 x5 i) := by
  have h54 : idx_main_v54 (ix2 i (⟨0, Nat.one_pos⟩ : Fin 1)) = ix1 i := funext fun a => Fin.ext (by match a with | ⟨0, _⟩ => rfl)
  rw [val_main_v56_apply, val_main_v54_apply, val_main_v55_apply, val_main_cst_9_apply, Ideal.hostDivf_def,
    Ideal.ofBits_def, h54, val_main_v53_apply, val_main_cst_8_apply, Ideal.ofBits_def]
  unfold progMean edgeIn
  refine congrArg (fun s => Ideal.div (_ + s) _) (Finset.sum_congr rfl fun k _ => congrArg _ ?_)
  exact funext fun a => Fin.ext (by match a with | ⟨0, _⟩ => rfl | ⟨1, _⟩ => rfl)

/-- An entry less its row's mean, as the variance's operand spells it: the mean broadcast back along
    the row reads the mean of row `i` at every column. -/
theorem edge_dev (i : Fin 1000000) (k : Fin 64) :
    val_main_v58 (F := Ideal) x0 x1 x2 x3 x4 x5 (ix2 i k) = edgeIn x0 x1 x2 x3 x4 x5 i k - progMean (edgeIn x0 x1 x2 x3 x4 x5 i) := by
  have h57 : idx_main_v57 (ix2 i k) = ix2 i (⟨0, Nat.one_pos⟩ : Fin 1) := funext fun a => Fin.ext (by match a with | ⟨0, _⟩ => rfl | ⟨1, _⟩ => rfl)
  rw [val_main_v58_apply, val_main_v57_apply, Ideal.subf_def, h57, edge_mean]
  rfl

/-- The same difference as the normalized entry's numerator spells it (a second broadcast of the mean). -/
theorem edge_dev' (i : Fin 1000000) (k : Fin 64) :
    val_main_v65 (F := Ideal) x0 x1 x2 x3 x4 x5 (ix2 i k) = edgeIn x0 x1 x2 x3 x4 x5 i k - progMean (edgeIn x0 x1 x2 x3 x4 x5 i) := by
  have h64 : idx_main_v64 (ix2 i k) = ix2 i (⟨0, Nat.one_pos⟩ : Fin 1) := funext fun a => Fin.ext (by match a with | ⟨0, _⟩ => rfl | ⟨1, _⟩ => rfl)
  rw [val_main_v65_apply, val_main_v64_apply, Ideal.subf_def, h64, edge_mean]
  rfl

/-- The per-row variance at row `i`: the program's mean of the squared deviations of row `i`. -/
theorem edge_var (i : Fin 1000000) :
    val_main_v63 (F := Ideal) x0 x1 x2 x3 x4 x5 (ix2 i (⟨0, Nat.one_pos⟩ : Fin 1))
      = progMean (fun k => (edgeIn x0 x1 x2 x3 x4 x5 i k - progMean (edgeIn x0 x1 x2 x3 x4 x5 i)) * (edgeIn x0 x1 x2 x3 x4 x5 i k - progMean (edgeIn x0 x1 x2 x3 x4 x5 i))) := by
  have h61 : idx_main_v61 (ix2 i (⟨0, Nat.one_pos⟩ : Fin 1)) = ix1 i := funext fun a => Fin.ext (by match a with | ⟨0, _⟩ => rfl)
  rw [val_main_v63_apply, val_main_v61_apply, val_main_v62_apply, val_main_cst_11_apply, Ideal.hostDivf_def,
    Ideal.ofBits_def, h61, val_main_v60_apply, val_main_cst_10_apply, Ideal.ofBits_def]
  refine congrArg (fun s => Ideal.div (_ + s) _) (Finset.sum_congr rfl fun k _ => ?_)
  have h60 : idx_main_v60 (ix1 i) k = ix2 i k := funext fun a => Fin.ext (by match a with | ⟨0, _⟩ => rfl | ⟨1, _⟩ => rfl)
  rw [h60, val_main_v59_apply, Ideal.mulf_def, edge_dev]

/-- The per-row scale at row `i`: the inverse square root of the variance plus the small constant. -/
theorem edge_rs (i : Fin 1000000) :
    val_main_v68 (F := Ideal) x0 x1 x2 x3 x4 x5 (ix2 i (⟨0, Nat.one_pos⟩ : Fin 1))
      = Ideal.rsqrt (progMean (fun k => (edgeIn x0 x1 x2 x3 x4 x5 i k - progMean (edgeIn x0 x1 x2 x3 x4 x5 i)) * (edgeIn x0 x1 x2 x3 x4 x5 i k - progMean (edgeIn x0 x1 x2 x3 x4 x5 i)))
          + Ideal.ofBits .f32 0x358637BD#32) := by
  rw [val_main_v68_apply, val_main_v67_apply, val_main_v66_apply, val_main_cst_12_apply, Ideal.hostUnary_rsqrt_def,
    Ideal.addf_def, Ideal.ofBits_def, edge_var]

/-- The normalized entry, in the program's spelling of the mean and variance. -/
theorem edge_out (x10 x11 : (⟨S64, .f32⟩ : BufTy).Contents (Elt Ideal)) (i : Fin 1000000) (j : Fin 64) :
    val_main_v76 (F := Ideal) x0 x1 x2 x3 x4 x5 x10 x11 (ix2 i j)
      = layerNorm (edgeIn x0 x1 x2 x3 x4 x5 i) (fun j' => x10 (ix1 j')) (fun j' => x11 (ix1 j')) j := by
  have h69 : idx_main_v69 (ix2 i j) = ix2 i (⟨0, Nat.one_pos⟩ : Fin 1) := funext fun a => Fin.ext (by match a with | ⟨0, _⟩ => rfl | ⟨1, _⟩ => rfl)
  have h72 : idx_main_v71 (idx_main_v72 (ix2 i j)) = ix1 j := funext fun a => Fin.ext (by match a with | ⟨0, _⟩ => rfl)
  have h75 : idx_main_v74 (idx_main_v75 (ix2 i j)) = ix1 j := funext fun a => Fin.ext (by match a with | ⟨0, _⟩ => rfl)
  rw [val_main_v76_apply, val_main_v73_apply, val_main_v70_apply, val_main_v69_apply, val_main_v72_apply, val_main_v71_apply,
    val_main_v75_apply, val_main_v74_apply, Ideal.addf_def, Ideal.mulf_def, Ideal.mulf_def, h69, h72, h75,
    edge_dev', edge_rs]
  exact layerNorm_of_prog (edgeIn x0 x1 x2 x3 x4 x5 i) (fun j' => x10 (ix1 j')) (fun j' => x11 (ix1 j')) j

end Edge

/-- **The edge output at row `i`, column `j`**: the layer normalization of (new edge row + old edge row). -/
theorem edgesOut_apply (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal))
    (x5 x10 x11 : (⟨S64, .f32⟩ : BufTy).Contents (Elt Ideal)) (i : Fin 1000000) (j : Fin 64) :
    val_main_v76 (F := Ideal) x0 x1 x2 x3 x4 x5 x10 x11 (ix2 i j)
      = layerNorm (fun k => val_main_v18 (F := Ideal) x0 x1 x2 x3 x4 x5 (ix2 i k) + x1 (ix2 i k))
          (fun j' => x10 (ix1 j')) (fun j' => x11 (ix1 j')) j := by
  have hin : edgeIn x0 x1 x2 x3 x4 x5 i
      = fun k => val_main_v18 (F := Ideal) x0 x1 x2 x3 x4 x5 (ix2 i k) + x1 (ix2 i k) := by
    funext k
    unfold edgeIn
    rw [val_main_v52_apply, Ideal.addf_def]
  rw [edge_out, hin]

/-! ## The edge dense layer: stages 14 to 18

Stage 14 lays the edge row, the sender's row and the receiver's row side by side (192 columns); stage 15
contracts it with the 192 × 64 weights. Column `k`, `64 + k`, `128 + k` of the joined row is column `k`
of the first, second, third piece. -/

section Dense3

variable (x0 : (⟨S100000x64, .f32⟩ : BufTy).Contents (Elt Ideal)) (x1 : (⟨S1000000x64, .f32⟩ : BufTy).Contents (Elt Ideal))
  (x2 x3 : (⟨S1000000, .i32⟩ : BufTy).Contents (Elt Ideal))

/-- The joined row at a column below 64 is the edge row. -/
theorem cat3_fst (i : Fin 1000000) (j k : Fin 64) :
    val_main_v14 (F := Ideal) x0 x1 x2 x3 (lidx_main_v15 (ix2 i j) (⟨k.val, by omega⟩ : Fin 192)) = x1 (ix2 i k) := by
  unfold val_main_v14
  exact concatenate_apply_piece (t := S1000000x192) 1 [⟨S1000000x64, x1⟩, ⟨S1000000x64, val_main_v6 (F := Ideal) x0 x2⟩, ⟨S1000000x64, val_main_v13 (F := Ideal) x0 x3⟩]
    Gen.concatenates_S1000000x64_S1000000x64_S1000000x64_S1000000x192_d1 (lidx_main_v15 (ix2 i j) (⟨k.val, by omega⟩ : Fin 192)) 0 (by show (0 : Nat) < 3; decide) S1000000x64 x1 rfl rfl 0 rfl (ix2 i k)
    (fun b hb => by match b with | ⟨0, _⟩ => rfl | ⟨1, _⟩ => exact absurd rfl hb) (by show 0 + k.val = k.val; omega)

/-- The joined row at column `64 + k` is the sender's row at column `k`. -/
theorem cat3_snd (i : Fin 1000000) (j k : Fin 64) :
    val_main_v14 (F := Ideal) x0 x1 x2 x3 (lidx_main_v15 (ix2 i j) (⟨64 + k.val, by omega⟩ : Fin 192))
      = val_main_v6 (F := Ideal) x0 x2 (ix2 i k) := by
  unfold val_main_v14
  exact concatenate_apply_piece (t := S1000000x192) 1 [⟨S1000000x64, x1⟩, ⟨S1000000x64, val_main_v6 (F := Ideal) x0 x2⟩, ⟨S1000000x64, val_main_v13 (F := Ideal) x0 x3⟩]
    Gen.concatenates_S1000000x64_S1000000x64_S1000000x64_S1000000x192_d1 (lidx_main_v15 (ix2 i j) (⟨64 + k.val, by omega⟩ : Fin 192)) 1 (by show (1 : Nat) < 3; decide) S1000000x64 (val_main_v6 (F := Ideal) x0 x2) rfl rfl 64 rfl (ix2 i k)
    (fun b hb => by match b with | ⟨0, _⟩ => rfl | ⟨1, _⟩ => exact absurd rfl hb) rfl

/-- The joined row at column `128 + k` is the receiver's row at column `k`. -/
theorem cat3_thd (i : Fin 1000000) (j k : Fin 64) :
    val_main_v14 (F := Ideal) x0 x1 x2 x3 (lidx_main_v15 (ix2 i j) (⟨128 + k.val, by omega⟩ : Fin 192))
      = val_main_v13 (F := Ideal) x0 x3 (ix2 i k) := by
  unfold val_main_v14
  exact concatenate_apply_piece (t := S1000000x192) 1 [⟨S1000000x64, x1⟩, ⟨S1000000x64, val_main_v6 (F := Ideal) x0 x2⟩, ⟨S1000000x64, val_main_v13 (F := Ideal) x0 x3⟩]
    Gen.concatenates_S1000000x64_S1000000x64_S1000000x64_S1000000x192_d1 (lidx_main_v15 (ix2 i j) (⟨128 + k.val, by omega⟩ : Fin 192)) 2 (by show (2 : Nat) < 3; decide) S1000000x64 (val_main_v13 (F := Ideal) x0 x3) rfl rfl 128 rfl (ix2 i k)
    (fun b hb => by match b with | ⟨0, _⟩ => rfl | ⟨1, _⟩ => exact absurd rfl hb) rfl

end Dense3

/-- **The new edge rows at row `i`, column `j`**: the dense layer over the edge row, the sender's row and
    the receiver's row, each against its own 64 rows of the weights, plus the bias. -/
theorem newEdges_apply (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal))
    (x5 : (⟨S64, .f32⟩ : BufTy).Contents (Elt Ideal)) (i : Fin 1000000) (j : Fin 64) :
    val_main_v18 (F := Ideal) x0 x1 x2 x3 x4 x5 (ix2 i j)
      = dense3 (fun k => x1 (ix2 i k)) (fun k => val_main_v6 (F := Ideal) x0 x2 (ix2 i k))
          (fun k => val_main_v13 (F := Ideal) x0 x3 (ix2 i k))
          (fun k j' => x4 (ix2 (⟨k.val, by omega⟩ : Fin 192) j')) (fun k j' => x4 (ix2 (⟨64 + k.val, by omega⟩ : Fin 192) j'))
          (fun k j' => x4 (ix2 (⟨128 + k.val, by omega⟩ : Fin 192) j'))
          (fun j' => x5 (ix1 j')) j := by
  have h17 : idx_main_v16 (idx_main_v17 (ix2 i j)) = ix1 j := funext fun a => Fin.ext (by match a with | ⟨0, _⟩ => rfl)
  rw [val_main_v18_apply, val_main_v17_apply, val_main_v16_apply, Ideal.addf_def, val_main_v15_apply, h17, sum_split3]
  unfold dense3
  refine congrArg (· + x5 (ix1 j)) ?_
  refine congrArg₂ (· + ·) (congrArg₂ (· + ·) (Finset.sum_congr rfl fun k _ => ?_) (Finset.sum_congr rfl fun k _ => ?_))
    (Finset.sum_congr rfl fun k _ => ?_)
  · exact congrArg₂ (· * ·) (cat3_fst x0 x1 x2 x3 i j k) (congrArg x4 (funext fun a => Fin.ext (by match a with | ⟨0, _⟩ => rfl | ⟨1, _⟩ => rfl)))
  · exact congrArg₂ (· * ·) (cat3_snd x0 x1 x2 x3 i j k) (congrArg x4 (funext fun a => Fin.ext (by match a with | ⟨0, _⟩ => rfl | ⟨1, _⟩ => rfl)))
  · exact congrArg₂ (· * ·) (cat3_thd x0 x1 x2 x3 i j k) (congrArg x4 (funext fun a => Fin.ext (by match a with | ⟨0, _⟩ => rfl | ⟨1, _⟩ => rfl)))

/-! ## The node rows: stages 27 to 51 (the same operations as the edge rows, over 100000 rows) -/

section Node

variable (x0 : (⟨S100000x64, .f32⟩ : BufTy).Contents (Elt Ideal)) (x1 : (⟨S1000000x64, .f32⟩ : BufTy).Contents (Elt Ideal))
  (x2 x3 : (⟨S1000000, .i32⟩ : BufTy).Contents (Elt Ideal)) (x4 : (⟨S192x64, .f32⟩ : BufTy).Contents (Elt Ideal))
  (x5 : (⟨S64, .f32⟩ : BufTy).Contents (Elt Ideal)) (x6 : (⟨S128x64, .f32⟩ : BufTy).Contents (Elt Ideal))
  (x7 : (⟨S64, .f32⟩ : BufTy).Contents (Elt Ideal))

/-- The node row being normalized: the new node row plus the old one (stage 27), row `i`. -/
def nodeIn (i : Fin 100000) (k : Fin 64) : EReal :=
  val_main_v27 (F := Ideal) x0 x1 x2 x3 x4 x5 x6 x7 (ix2 i k)

/-- The per-row mean (a one-column array) at row `i` is the program's mean of row `i`: the column
    broadcast of the row sums reads the sum of row `i`, the divisor is the splat of 64. -/
theorem node_mean (i : Fin 100000) :
    val_main_v31 (F := Ideal) x0 x1 x2 x3 x4 x5 x6 x7 (ix2 i (⟨0, Nat.one_pos⟩ : Fin 1)) = progMean (nodeIn x0 x1 x2 x3 x4 x5 x6 x7 i) := by
  have h54 : idx_main_v29 (ix2 i (⟨0, Nat.one_pos⟩ : Fin 1)) = ix1 i := funext fun a => Fin.ext (by match a with | ⟨0, _⟩ => rfl)
  rw [val_main_v31_apply, val_main_v29_apply, val_main_v30_apply, val_main_cst_4_apply, Ideal.hostDivf_def,
    Ideal.ofBits_def, h54, val_main_v28_apply, val_main_cst_3_apply, Ideal.ofBits_def]
  unfold progMean nodeIn
  refine congrArg (fun s => Ideal.div (_ + s) _) (Finset.sum_congr rfl fun k _ => congrArg _ ?_)
  exact funext fun a => Fin.ext (by match a with | ⟨0, _⟩ => rfl | ⟨1, _⟩ => rfl)

/-- An entry less its row's mean, as the variance's operand spells it: the mean broadcast back along
    the row reads the mean of row `i` at every column. -/
theorem node_dev (i : Fin 100000) (k : Fin 64) :
    val_main_v33 (F := Ideal) x0 x1 x2 x3 x4 x5 x6 x7 (ix2 i k) = nodeIn x0 x1 x2 x3 x4 x5 x6 x7 i k - progMean (nodeIn x0 x1 x2 x3 x4 x5 x6 x7 i) := by
  have h57 : idx_main_v32 (ix2 i k) = ix2 i (⟨0, Nat.one_pos⟩ : Fin 1) := funext fun a => Fin.ext (by match a with | ⟨0, _⟩ => rfl | ⟨1, _⟩ => rfl)
  rw [val_main_v33_apply, val_main_v32_apply, Ideal.subf_def, h57, node_mean]
  rfl

/-- The same difference as the normalized entry's numerator spells it (a second broadcast of the mean). -/
theorem node_dev' (i : Fin 100000) (k : Fin 64) :
    val_main_v40 (F := Ideal) x0 x1 x2 x3 x4 x5 x6 x7 (ix2 i k) = nodeIn x0 x1 x2 x3 x4 x5 x6 x7 i k - progMean (nodeIn x0 x1 x2 x3 x4 x5 x6 x7 i) := by
  have h64 : idx_main_v39 (ix2 i k) = ix2 i (⟨0, Nat.one_pos⟩ : Fin 1) := funext fun a => Fin.ext (by match a with | ⟨0, _⟩ => rfl | ⟨1, _⟩ => rfl)
  rw [val_main_v40_apply, val_main_v39_apply, Ideal.subf_def, h64, node_mean]
  rfl

/-- The per-row variance at row `i`: the program's mean of the squared deviations of row `i`. -/
theorem node_var (i : Fin 100000) :
    val_main_v38 (F := Ideal) x0 x1 x2 x3 x4 x5 x6 x7 (ix2 i (⟨0, Nat.one_pos⟩ : Fin 1))
      = progMean (fun k => (nodeIn x0 x1 x2 x3 x4 x5 x6 x7 i k - progMean (nodeIn x0 x1 x2 x3 x4 x5 x6 x7 i)) * (nodeIn x0 x1 x2 x3 x4 x5 x6 x7 i k - progMean (nodeIn x0 x1 x2 x3 x4 x5 x6 x7 i))) := by
  have h61 : idx_main_v36 (ix2 i (⟨0, Nat.one_pos⟩ : Fin 1)) = ix1 i := funext fun a => Fin.ext (by match a with | ⟨0, _⟩ => rfl)
  rw [val_main_v38_apply, val_main_v36_apply, val_main_v37_apply, val_main_cst_6_apply, Ideal.hostDivf_def,
    Ideal.ofBits_def, h61, val_main_v35_apply, val_main_cst_5_apply, Ideal.ofBits_def]
  refine congrArg (fun s => Ideal.div (_ + s) _) (Finset.sum_congr rfl fun k _ => ?_)
  have h60 : idx_main_v35 (ix1 i) k = ix2 i k := funext fun a => Fin.ext (by match a with | ⟨0, _⟩ => rfl | ⟨1, _⟩ => rfl)
  rw [h60, val_main_v34_apply, Ideal.mulf_def, node_dev]

/-- The per-row scale at row `i`: the inverse square root of the variance plus the small constant. -/
theorem node_rs (i : Fin 100000) :
    val_main_v43 (F := Ideal) x0 x1 x2 x3 x4 x5 x6 x7 (ix2 i (⟨0, Nat.one_pos⟩ : Fin 1))
      = Ideal.rsqrt (progMean (fun k => (nodeIn x0 x1 x2 x3 x4 x5 x6 x7 i k - progMean (nodeIn x0 x1 x2 x3 x4 x5 x6 x7 i)) * (nodeIn x0 x1 x2 x3 x4 x5 x6 x7 i k - progMean (nodeIn x0 x1 x2 x3 x4 x5 x6 x7 i)))
          + Ideal.ofBits .f32 0x358637BD#32) := by
  rw [val_main_v43_apply, val_main_v42_apply, val_main_v41_apply, val_main_cst_7_apply, Ideal.hostUnary_rsqrt_def,
    Ideal.addf_def, Ideal.ofBits_def, node_var]

/-- The normalized entry, in the program's spelling of the mean and variance. -/
theorem node_out (x8 x9 : (⟨S64, .f32⟩ : BufTy).Contents (Elt Ideal)) (i : Fin 100000) (j : Fin 64) :
    val_main_v51 (F := Ideal) x0 x1 x2 x3 x4 x5 x6 x7 x8 x9 (ix2 i j)
      = layerNorm (nodeIn x0 x1 x2 x3 x4 x5 x6 x7 i) (fun j' => x8 (ix1 j')) (fun j' => x9 (ix1 j')) j := by
  have h69 : idx_main_v44 (ix2 i j) = ix2 i (⟨0, Nat.one_pos⟩ : Fin 1) := funext fun a => Fin.ext (by match a with | ⟨0, _⟩ => rfl | ⟨1, _⟩ => rfl)
  have h72 : idx_main_v46 (idx_main_v47 (ix2 i j)) = ix1 j := funext fun a => Fin.ext (by match a with | ⟨0, _⟩ => rfl)
  have h75 : idx_main_v49 (idx_main_v50 (ix2 i j)) = ix1 j := funext fun a => Fin.ext (by match a with | ⟨0, _⟩ => rfl)
  rw [val_main_v51_apply, val_main_v48_apply, val_main_v45_apply, val_main_v44_apply, val_main_v47_apply, val_main_v46_apply,
    val_main_v50_apply, val_main_v49_apply, Ideal.addf_def, Ideal.mulf_def, Ideal.mulf_def, h69, h72, h75,
    node_dev', node_rs]
  exact layerNorm_of_prog (nodeIn x0 x1 x2 x3 x4 x5 x6 x7 i) (fun j' => x8 (ix1 j')) (fun j' => x9 (ix1 j')) j

end Node

/-- **The node output at row `i`, column `j`**: the layer normalization of (new node row + old node row). -/
theorem nodesOut_apply (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal))
    (x5 : (⟨S64, .f32⟩ : BufTy).Contents (Elt Ideal)) (x6 : (⟨S128x64, .f32⟩ : BufTy).Contents (Elt Ideal))
    (x7 x8 x9 : (⟨S64, .f32⟩ : BufTy).Contents (Elt Ideal)) (i : Fin 100000) (j : Fin 64) :
    val_main_v51 (F := Ideal) x0 x1 x2 x3 x4 x5 x6 x7 x8 x9 (ix2 i j)
      = layerNorm (fun k => val_main_v26 (F := Ideal) x0 x1 x2 x3 x4 x5 x6 x7 (ix2 i k) + x0 (ix2 i k))
          (fun j' => x8 (ix1 j')) (fun j' => x9 (ix1 j')) j := by
  have hin : nodeIn x0 x1 x2 x3 x4 x5 x6 x7 i
      = fun k => val_main_v26 (F := Ideal) x0 x1 x2 x3 x4 x5 x6 x7 (ix2 i k) + x0 (ix2 i k) := by
    funext k
    unfold nodeIn
    rw [val_main_v27_apply, Ideal.addf_def]
  rw [node_out, hin]

/-! ## The node dense layer: stages 22 to 26

Stage 22 lays the node row and the sum of its incoming new edge rows side by side (128 columns); stage 23
contracts it with the 128 × 64 weights. Column `k`, `64 + k` of the joined row is column `k` of the
first, second piece. -/

section Dense2

variable (x0 : (⟨S100000x64, .f32⟩ : BufTy).Contents (Elt Ideal)) (x1 : (⟨S1000000x64, .f32⟩ : BufTy).Contents (Elt Ideal))
  (x2 x3 : (⟨S1000000, .i32⟩ : BufTy).Contents (Elt Ideal)) (x4 : (⟨S192x64, .f32⟩ : BufTy).Contents (Elt Ideal))
  (x5 : (⟨S64, .f32⟩ : BufTy).Contents (Elt Ideal))

/-- The joined row at a column below 64 is the node row. -/
theorem cat2_fst (i : Fin 100000) (j k : Fin 64) :
    val_main_v22 (F := Ideal) x0 x1 x2 x3 x4 x5 (lidx_main_v23 (ix2 i j) (⟨k.val, by omega⟩ : Fin 128)) = x0 (ix2 i k) := by
  unfold val_main_v22
  exact concatenate_apply_piece (t := S100000x128) 1 [⟨S100000x64, x0⟩, ⟨S100000x64, val_main_v21 (F := Ideal) x0 x1 x2 x3 x4 x5⟩]
    Gen.concatenates_S100000x64_S100000x64_S100000x128_d1 (lidx_main_v23 (ix2 i j) (⟨k.val, by omega⟩ : Fin 128)) 0 (by show (0 : Nat) < 2; decide) S100000x64 x0 rfl rfl 0 rfl (ix2 i k)
    (fun b hb => by match b with | ⟨0, _⟩ => rfl | ⟨1, _⟩ => exact absurd rfl hb) (by show 0 + k.val = k.val; omega)

/-- The joined row at column `64 + k` is the summed incoming edges at column `k`. -/
theorem cat2_snd (i : Fin 100000) (j k : Fin 64) :
    val_main_v22 (F := Ideal) x0 x1 x2 x3 x4 x5 (lidx_main_v23 (ix2 i j) (⟨64 + k.val, by omega⟩ : Fin 128))
      = val_main_v21 (F := Ideal) x0 x1 x2 x3 x4 x5 (ix2 i k) := by
  unfold val_main_v22
  exact concatenate_apply_piece (t := S100000x128) 1 [⟨S100000x64, x0⟩, ⟨S100000x64, val_main_v21 (F := Ideal) x0 x1 x2 x3 x4 x5⟩]
    Gen.concatenates_S100000x64_S100000x64_S100000x128_d1 (lidx_main_v23 (ix2 i j) (⟨64 + k.val, by omega⟩ : Fin 128)) 1 (by show (1 : Nat) < 2; decide) S100000x64
    (val_main_v21 (F := Ideal) x0 x1 x2 x3 x4 x5) rfl rfl 64 rfl (ix2 i k)
    (fun b hb => by match b with | ⟨0, _⟩ => rfl | ⟨1, _⟩ => exact absurd rfl hb) rfl

end Dense2

/-- **The new node rows at row `i`, column `j`**: the dense layer over the node row and the summed incoming
    new edge rows, each against its own 64 rows of the weights, plus the bias. -/
theorem newNodes_apply (x0 : (⟨S100000x64, .f32⟩ : BufTy).Contents (Elt Ideal)) (x1 : (⟨S1000000x64, .f32⟩ : BufTy).Contents (Elt Ideal))
    (x2 x3 : (⟨S1000000, .i32⟩ : BufTy).Contents (Elt Ideal)) (x4 : (⟨S192x64, .f32⟩ : BufTy).Contents (Elt Ideal))
    (x5 : (⟨S64, .f32⟩ : BufTy).Contents (Elt Ideal)) (x6 : (⟨S128x64, .f32⟩ : BufTy).Contents (Elt Ideal))
    (x7 : (⟨S64, .f32⟩ : BufTy).Contents (Elt Ideal)) (i : Fin 100000) (j : Fin 64) :
    val_main_v26 (F := Ideal) x0 x1 x2 x3 x4 x5 x6 x7 (ix2 i j)
      = dense2 (fun k => x0 (ix2 i k)) (fun k => val_main_v21 (F := Ideal) x0 x1 x2 x3 x4 x5 (ix2 i k))
          (fun k j' => x6 (ix2 (⟨k.val, by omega⟩ : Fin 128) j')) (fun k j' => x6 (ix2 (⟨64 + k.val, by omega⟩ : Fin 128) j'))
          (fun j' => x7 (ix1 j')) j := by
  have h25 : idx_main_v24 (idx_main_v25 (ix2 i j)) = ix1 j := funext fun a => Fin.ext (by match a with | ⟨0, _⟩ => rfl)
  rw [val_main_v26_apply, val_main_v25_apply, val_main_v24_apply, Ideal.addf_def, val_main_v23_apply, h25, sum_split2]
  unfold dense2
  refine congrArg (· + x7 (ix1 j)) ?_
  refine congrArg₂ (· + ·) (Finset.sum_congr rfl fun k _ => ?_) (Finset.sum_congr rfl fun k _ => ?_)
  · exact congrArg₂ (· * ·) (cat2_fst x0 x1 x2 x3 x4 x5 i j k) (congrArg x6 (funext fun a => Fin.ext (by match a with | ⟨0, _⟩ => rfl | ⟨1, _⟩ => rfl)))
  · exact congrArg₂ (· * ·) (cat2_snd x0 x1 x2 x3 x4 x5 i j k) (congrArg x6 (funext fun a => Fin.ext (by match a with | ⟨0, _⟩ => rfl | ⟨1, _⟩ => rfl)))

end Cert.ReferenceIdeal.RefRows

end
-- ==== Proof.EdgeArrays.lean ====
/-
  The two arrays the edge region leaves, as functions of the argument arrays.

  The region's grid has 200 points; point `t` stages rows `5000 t … 5000 t + 4999` of the edge rows, the
  sender rows and the receiver rows, and the whole of each weight block, bias and scale, and writes back rows
  `5000 t …` of the new edges and of the normalized edges. Entry `(p, q)` of what it writes depends only on
  row `5000 t + p` of the three row arrays, and is there what the reference's stage is at that row: the dense
  layer over the row's 192 joined inputs is the sum of the three 64-wide contractions the body adds up, and the
  normalization is the same function of the row. The 200 blocks tile the million rows, so each array after
  the region IS the reference's stage.
-/
import proofs.«107986_j17901423690016_2_alg».proof.Proof.Gen.KernelIdeal.Frame
import proofs.«107986_j17901423690016_2_alg».proof.Proof.Gen.ReferenceIdeal.Read
import proofs.«107986_j17901423690016_2_alg».proof.Proof.RowSpec
import proofs.«107986_j17901423690016_2_alg».proof.Proof.HostReads
import proofs.«107986_j17901423690016_2_alg».proof.Proof.EdgeBlock
import proofs.«107986_j17901423690016_2_alg».proof.Proof.RefRows
import Idealize.ShloMosaic.Lib.ValueIdx
import Idealize.ShloMosaic.Lib.Pipeline.Value

set_option maxRecDepth 16384

noncomputable section

namespace Cert.KernelIdeal.EdgeArrays

open Cert.KernelIdeal Cert.KernelIdeal.Gen Cert.RowSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The new edge rows as one array: the reference's own stage of the argument arrays. -/
abbrev newEdges (c : Dev nD) : S1000000x64.Idx → EReal :=
  Cert.ReferenceIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The normalized edge rows as one array: the reference's own stage of the argument arrays. -/
abbrev edgesOut (c : Dev nD) : S1000000x64.Idx → EReal :=
  Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11))

theorem hz : (![0, 0] : Fin 2 → Nat) = fun _ => 0 := funext fun a => by fin_cases a <;> rfl

/-! ## The index maps, decided once over the 200 grid points

    The five windows of edge rows take block `t` of their arrays at point `t`; the weight, bias and scale
    windows take their one block at every point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- Row `p` of block `t` is row `5000 t + p` of the array, which has a million rows. -/
theorem row_lt (t : Fin cfg0.N) (p : Fin 5000) : t.val * 5000 + p.val < 1000000 := by
  have ht : t.val < 200 := lt_of_lt_of_eq t.isLt N_0
  omega

/-! ## Each input window's block read at an entry -/

theorem read0 (c : Dev nD) (t : Fin cfg0.N) (p : Fin 5000) (k : Fin 64) :
    iblk0 (V1 m ρ) c 0 t (ix2 p k) = (V1 m ρ c main_arg1 : S1000000x64.Idx → EReal) (ix2 ⟨t.val * 5000 + p.val, row_lt t p⟩ k) := by
  show (V1 m ρ c main_arg1 : S1000000x64.Idx → EReal) (((cfg0.win 0).blk t).view.emb (ix2 p k)) = _
  refine congrArg (V1 m ρ c main_arg1 : S1000000x64.Idx → EReal) (funext fun a => Fin.ext ?_)
  obtain ⟨e0, e1⟩ := idx0 t
  match a with
  | ⟨0, _⟩ => show win0_0.index t (0 : Fin 2) * 5000 + 1 * p.val = t.val * 5000 + p.val; omega
  | ⟨1, _⟩ => show win0_0.index t (1 : Fin 2) * 64 + 1 * k.val = k.val; omega

theorem read1 (c : Dev nD) (t : Fin cfg0.N) (p : Fin 5000) (k : Fin 64) :
    iblk0 (V1 m ρ) c 1 t (ix2 p k) = (V1 m ρ c main_v6 : S1000000x64.Idx → EReal) (ix2 ⟨t.val * 5000 + p.val, row_lt t p⟩ k) := by
  show (V1 m ρ c main_v6 : S1000000x64.Idx → EReal) (((cfg0.win 1).blk t).view.emb (ix2 p k)) = _
  refine congrArg (V1 m ρ c main_v6 : S1000000x64.Idx → EReal) (funext fun a => Fin.ext ?_)
  obtain ⟨e0, e1⟩ := idx1 t
  match a with
  | ⟨0, _⟩ => show win0_1.index t (0 : Fin 2) * 5000 + 1 * p.val = t.val * 5000 + p.val; omega
  | ⟨1, _⟩ => show win0_1.index t (1 : Fin 2) * 64 + 1 * k.val = k.val; omega

theorem read2 (c : Dev nD) (t : Fin cfg0.N) (p : Fin 5000) (k : Fin 64) :
    iblk0 (V1 m ρ) c 2 t (ix2 p k) = (V1 m ρ c main_v13 : S1000000x64.Idx → EReal) (ix2 ⟨t.val * 5000 + p.val, row_lt t p⟩ k) := by
  show (V1 m ρ c main_v13 : S1000000x64.Idx → EReal) (((cfg0.win 2).blk t).view.emb (ix2 p k)) = _
  refine congrArg (V1 m ρ c main_v13 : S1000000x64.Idx → EReal) (funext fun a => Fin.ext ?_)
  obtain ⟨e0, e1⟩ := idx2 t
  match a with
  | ⟨0, _⟩ => show win0_2.index t (0 : Fin 2) * 5000 + 1 * p.val = t.val * 5000 + p.val; omega
  | ⟨1, _⟩ => show win0_2.index t (1 : Fin 2) * 64 + 1 * k.val = k.val; omega

theorem read3 (c : Dev nD) (t : Fin cfg0.N) (k j : Fin 64) :
    iblk0 (V1 m ρ) c 3 t (ix2 k j) = (V1 m ρ c main_v17 : S64x64.Idx → EReal) (ix2 k j) := by
  show (V1 m ρ c main_v17 : S64x64.Idx → EReal) (((cfg0.win 3).blk t).view.emb (ix2 k j)) = _
  refine congrArg (V1 m ρ c main_v17 : S64x64.Idx → EReal) (funext fun a => Fin.ext ?_)
  obtain ⟨e0, e1⟩ := idx3 t
  match a with
  | ⟨0, _⟩ => show win0_3.index t (0 : Fin 2) * 64 + 1 * k.val = k.val; omega
  | ⟨1, _⟩ => show win0_3.index t (1 : Fin 2) * 64 + 1 * j.val = j.val; omega

theorem read4 (c : Dev nD) (t : Fin cfg0.N) (k j : Fin 64) :
    iblk0 (V1 m ρ) c 4 t (ix2 k j) = (V1 m ρ c main_v18 : S64x64.Idx → EReal) (ix2 k j) := by
  show (V1 m ρ c main_v18 : S64x64.Idx → EReal) (((cfg0.win 4).blk t).view.emb (ix2 k j)) = _
  refine congrArg (V1 m ρ c main_v18 : S64x64.Idx → EReal) (funext fun a => Fin.ext ?_)
  obtain ⟨e0, e1⟩ := idx4 t
  match a with
  | ⟨0, _⟩ => show win0_4.index t (0 : Fin 2) * 64 + 1 * k.val = k.val; omega
  | ⟨1, _⟩ => show win0_4.index t (1 : Fin 2) * 64 + 1 * j.val = j.val; omega

theorem read5 (c : Dev nD) (t : Fin cfg0.N) (k j : Fin 64) :
    iblk0 (V1 m ρ) c 5 t (ix2 k j) = (V1 m ρ c main_v19 : S64x64.Idx → EReal) (ix2 k j) := by
  show (V1 m ρ c main_v19 : S64x64.Idx → EReal) (((cfg0.win 5).blk t).view.emb (ix2 k j)) = _
  refine congrArg (V1 m ρ c main_v19 : S64x64.Idx → EReal) (funext fun a => Fin.ext ?_)
  obtain ⟨e0, e1⟩ := idx5 t
  match a with
  | ⟨0, _⟩ => show win0_5.index t (0 : Fin 2) * 64 + 1 * k.val = k.val; omega
  | ⟨1, _⟩ => show win0_5.index t (1 : Fin 2) * 64 + 1 * j.val = j.val; omega

theorem read6 (c : Dev nD) (t : Fin cfg0.N) (u : Fin 1) (j : Fin 64) :
    iblk0 (V1 m ρ) c 6 t (ix2 u j) = (V1 m ρ c main_v20 : S1x64.Idx → EReal) (ix2 u j) := by
  show (V1 m ρ c main_v20 : S1x64.Idx → EReal) (((cfg0.win 6).blk t).view.emb (ix2 u j)) = _
  refine congrArg (V1 m ρ c main_v20 : S1x64.Idx → EReal) (funext fun a => Fin.ext ?_)
  obtain ⟨e0, e1⟩ := idx6 t
  match a with
  | ⟨0, _⟩ => show win0_6.index t (0 : Fin 2) * 1 + 1 * u.val = u.val; omega
  | ⟨1, _⟩ => show win0_6.index t (1 : Fin 2) * 64 + 1 * j.val = j.val; omega

theorem read7 (c : Dev nD) (t : Fin cfg0.N) (u : Fin 1) (j : Fin 64) :
    iblk0 (V1 m ρ) c 7 t (ix2 u j) = (V1 m ρ c main_v21 : S1x64.Idx → EReal) (ix2 u j) := by
  show (V1 m ρ c main_v21 : S1x64.Idx → EReal) (((cfg0.win 7).blk t).view.emb (ix2 u j)) = _
  refine congrArg (V1 m ρ c main_v21 : S1x64.Idx → EReal) (funext fun a => Fin.ext ?_)
  obtain ⟨e0, e1⟩ := idx7 t
  match a with
  | ⟨0, _⟩ => show win0_7.index t (0 : Fin 2) * 1 + 1 * u.val = u.val; omega
  | ⟨1, _⟩ => show win0_7.index t (1 : Fin 2) * 64 + 1 * j.val = j.val; omega

theorem read8 (c : Dev nD) (t : Fin cfg0.N) (u : Fin 1) (j : Fin 64) :
    iblk0 (V1 m ρ) c 8 t (ix2 u j) = (V1 m ρ c main_v22 : S1x64.Idx → EReal) (ix2 u j) := by
  show (V1 m ρ c main_v22 : S1x64.Idx → EReal) (((cfg0.win 8).blk t).view.emb (ix2 u j)) = _
  refine congrArg (V1 m ρ c main_v22 : S1x64.Idx → EReal) (funext fun a => Fin.ext ?_)
  obtain ⟨e0, e1⟩ := idx8 t
  match a with
  | ⟨0, _⟩ => show win0_8.index t (0 : Fin 2) * 1 + 1 * u.val = u.val; omega
  | ⟨1, _⟩ => show win0_8.index t (1 : Fin 2) * 64 + 1 * j.val = j.val; omega

/-- An output block's entry `(p, q)` sits at `(5000 t + p, q)` of its array. -/
theorem emb9 (t : Fin cfg0.N) (p : Fin 5000) (q : Fin 64) :
    ((cfg0.win 9).blk t).view.emb (ix2 p q) = (ix2 ⟨t.val * 5000 + p.val, row_lt t p⟩ q : S1000000x64.Idx) :=
  funext fun a => Fin.ext (by
    obtain ⟨e0, e1⟩ := idx9 t
    match a with
    | ⟨0, _⟩ => show win0_9.index t (0 : Fin 2) * 5000 + 1 * p.val = t.val * 5000 + p.val; omega
    | ⟨1, _⟩ => show win0_9.index t (1 : Fin 2) * 64 + 1 * q.val = q.val; omega)
theorem emb10 (t : Fin cfg0.N) (p : Fin 5000) (q : Fin 64) :
    ((cfg0.win 10).blk t).view.emb (ix2 p q) = (ix2 ⟨t.val * 5000 + p.val, row_lt t p⟩ q : S1000000x64.Idx) :=
  funext fun a => Fin.ext (by
    obtain ⟨e0, e1⟩ := idx10 t
    match a with
    | ⟨0, _⟩ => show win0_10.index t (0 : Fin 2) * 5000 + 1 * p.val = t.val * 5000 + p.val; omega
    | ⟨1, _⟩ => show win0_10.index t (1 : Fin 2) * 64 + 1 * q.val = q.val; omega)

/-! ## What a point writes back is its block of the reference's stage -/

/-- Entry `(p, q)` of the new-edge block at point `t`: the dense layer of row `5000 t + p`'s three input rows,
    which is the reference's new-edge stage at that row. -/
theorem newEdge_block (c : Dev nD) (t : Fin cfg0.N) (p : Fin 5000) (q : Fin 64) :
    k0_pay2 (F := Ideal) (iblk0 (V1 m ρ) c 0 t) (iblk0 (V1 m ρ) c 1 t) (iblk0 (V1 m ρ) c 2 t) (iblk0 (V1 m ρ) c 3 t)
        (iblk0 (V1 m ρ) c 4 t) (iblk0 (V1 m ρ) c 5 t) (iblk0 (V1 m ρ) c 6 t) (ix2 p q)
      = newEdges m c (ix2 ⟨t.val * 5000 + p.val, row_lt t p⟩ q) := by
  unfold newEdges
  rw [Cert.KernelIdeal.EdgeBlock.newEdge_apply, Cert.ReferenceIdeal.RefRows.newEdges_apply]
  have h0 : (fun k => iblk0 (V1 m ρ) c 0 t (ix2 p k)) = fun k => (m ((c : Thread nD τ).loc main_arg1)) (ix2 ⟨t.val * 5000 + p.val, row_lt t p⟩ k) :=
    funext fun k => (read0 m ρ c t p k).trans (congrFun (Cert.KernelIdeal.HostReads.V1_arg1 m ρ c) _)
  have h1 : (fun k => iblk0 (V1 m ρ) c 1 t (ix2 p k)) = fun k => Cert.ReferenceIdeal.Read.val_main_v6 (F := Ideal) (m ((c : Thread nD τ).loc main_arg0)) (m ((c : Thread nD τ).loc main_arg2)) (ix2 ⟨t.val * 5000 + p.val, row_lt t p⟩ k) :=
    funext fun k => (read1 m ρ c t p k).trans (congrFun (Cert.KernelIdeal.HostReads.V1_v6 m ρ c) _)
  have h2 : (fun k => iblk0 (V1 m ρ) c 2 t (ix2 p k)) = fun k => Cert.ReferenceIdeal.Read.val_main_v13 (F := Ideal) (m ((c : Thread nD τ).loc main_arg0)) (m ((c : Thread nD τ).loc main_arg3)) (ix2 ⟨t.val * 5000 + p.val, row_lt t p⟩ k) :=
    funext fun k => (read2 m ρ c t p k).trans (congrFun (Cert.KernelIdeal.HostReads.V1_v13 m ρ c) _)
  have h3 : (fun k j => iblk0 (V1 m ρ) c 3 t (ix2 k j)) = fun (k j : Fin 64) => (m ((c : Thread nD τ).loc main_arg4)) (ix2 (⟨k.val, by omega⟩ : Fin 192) j) :=
    funext fun k => funext fun j => (read3 m ρ c t k j).trans (Cert.KernelIdeal.HostReads.V1_v17_apply m ρ c k j)
  have h4 : (fun k j => iblk0 (V1 m ρ) c 4 t (ix2 k j)) = fun (k j : Fin 64) => (m ((c : Thread nD τ).loc main_arg4)) (ix2 (⟨64 + k.val, by omega⟩ : Fin 192) j) :=
    funext fun k => funext fun j => (read4 m ρ c t k j).trans (Cert.KernelIdeal.HostReads.V1_v18_apply m ρ c k j)
  have h5 : (fun k j => iblk0 (V1 m ρ) c 5 t (ix2 k j)) = fun (k j : Fin 64) => (m ((c : Thread nD τ).loc main_arg4)) (ix2 (⟨128 + k.val, by omega⟩ : Fin 192) j) :=
    funext fun k => funext fun j => (read5 m ρ c t k j).trans (Cert.KernelIdeal.HostReads.V1_v19_apply m ρ c k j)
  have h6 : (fun j => iblk0 (V1 m ρ) c 6 t (ix2 (0 : Fin 1) j)) = fun (j : Fin 64) => (m ((c : Thread nD τ).loc main_arg5)) (ix1 j) :=
    funext fun j => (read6 m ρ c t 0 j).trans (Cert.KernelIdeal.HostReads.V1_v20_apply m ρ c 0 j)
  rw [h0, h1, h2, h3, h4, h5, h6]

/-- Entry `(p, q)` of the normalized-edge block at point `t`: the layer normalization of (new edge row + old
    edge row) at row `5000 t + p`, which is the reference's normalized-edge stage at that row. -/
theorem edgeOut_block (c : Dev nD) (t : Fin cfg0.N) (p : Fin 5000) (q : Fin 64) :
    k0_pay1 (F := Ideal) (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (k0_pay4 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (k0_pay5 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (k0_pay6 (F := Ideal)) (iblk0 (V1 m ρ) c 7 t) (iblk0 (V1 m ρ) c 8 t) (ix2 p q)
      = edgesOut m c (ix2 ⟨t.val * 5000 + p.val, row_lt t p⟩ q) := by
  unfold edgesOut
  rw [Cert.KernelIdeal.EdgeBlock.edgeOut_apply, Cert.ReferenceIdeal.RefRows.edgesOut_apply]
  have hx : (fun k => k0_pay2 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (ix2 p k) + (iblk0 (V1 m ρ) c 0 t) (ix2 p k))
      = fun k => newEdges m c (ix2 ⟨t.val * 5000 + p.val, row_lt t p⟩ k) + (m ((c : Thread nD τ).loc main_arg1)) (ix2 ⟨t.val * 5000 + p.val, row_lt t p⟩ k) :=
    funext fun k => by rw [newEdge_block m ρ c t p k, read0 m ρ c t p k, congrFun (Cert.KernelIdeal.HostReads.V1_arg1 m ρ c) _]
  have h7 : (fun j => (iblk0 (V1 m ρ) c 7 t) (ix2 (0 : Fin 1) j)) = fun (j : Fin 64) => (m ((c : Thread nD τ).loc main_arg10)) (ix1 j) :=
    funext fun j => (read7 m ρ c t 0 j).trans (Cert.KernelIdeal.HostReads.V1_v21_apply m ρ c 0 j)
  have h8 : (fun j => (iblk0 (V1 m ρ) c 8 t) (ix2 (0 : Fin 1) j)) = fun (j : Fin 64) => (m ((c : Thread nD τ).loc main_arg11)) (ix1 j) :=
    funext fun j => (read8 m ρ c t 0 j).trans (Cert.KernelIdeal.HostReads.V1_v22_apply m ρ c 0 j)
  rw [hx, h7, h8]

/-- What point `t` writes back to the new-edge array is block `t` of the reference's new-edge stage. -/
theorem flushed9_eq (c : Dev nD) (t : Fin cfg0.N) :
    (dat0 (V1 m ρ) c).flushed 9 t = ((cfg0.win 9).blk t).view.read (Elt Ideal) (newEdges m c) := by
  show (cfg0.win 9).cut (grid0.coords t) ((dat0 (V1 m ρ) c).after 9 t) = _
  rw [after0_9]
  unfold out0_9
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  show k0_pay2 (F := Ideal) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (ix2 p q) = newEdges m c (((cfg0.win 9).blk t).view.emb (ix2 p q))
  rw [emb9 t p q]
  exact newEdge_block m ρ c t p q

/-- What point `t` writes back to the normalized-edge array is block `t` of the reference's stage. -/
theorem flushed10_eq (c : Dev nD) (t : Fin cfg0.N) :
    (dat0 (V1 m ρ) c).flushed 10 t = ((cfg0.win 10).blk t).view.read (Elt Ideal) (edgesOut m c) := by
  show (cfg0.win 10).cut (grid0.coords t) ((dat0 (V1 m ρ) c).after 10 t) = _
  rw [after0_10]
  unfold out0_10
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  show k0_pay1 (F := Ideal) (k0_pay3 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (k0_pay4 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (k0_pay5 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t)) (k0_pay6 (F := Ideal)) (iblk0 (V1 m ρ) c 7 t) (iblk0 (V1 m ρ) c 8 t) (ix2 p q)
    = edgesOut m c (((cfg0.win 10).blk t).view.emb (ix2 p q))
  rw [emb10 t p q]
  exact edgeOut_block m ρ c t p q

/-! ## The blocks tile the arrays: row `r` lies in the block of point `r / 5000` -/

theorem mem_blk9 (t : Fin cfg0.N) (i : S1000000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v23_0).slice (win0_9.rect t)).set ↔ _
  rw [View.set_slice_whole, Rect.mem_set_unit]
  exact Iff.rfl
theorem mem_blk10 (t : Fin cfg0.N) (i : S1000000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v23_1).slice (win0_10.rect t)).set ↔ _
  rw [View.set_slice_whole, Rect.mem_set_unit]
  exact Iff.rfl

/-- The point whose block holds row `r`. -/
def pointOf (i : S1000000x64.Idx) : Fin cfg0.N :=
  ⟨(i 0).val / 5000, lt_of_lt_of_eq (by have h : (i 0).val < 1000000 := (i 0).isLt; show (i 0).val / 5000 < 200; omega) N_0.symm⟩

theorem cover9 (i : S1000000x64.Idx) : ∃ t : Fin cfg0.N, (cfg0.win 9).flush t = true ∧ i ∈ ((cfg0.win 9).blk t).view.set := by
  have hi0 : (i 0).val < 1000000 := (i 0).isLt
  have hi1 : (i 1).val < 64 := (i 1).isLt
  obtain ⟨e0, e1⟩ := idx9 (pointOf i)
  have ht : (pointOf i).val = (i 0).val / 5000 := rfl
  refine ⟨pointOf i, flush0_9 _, ?_⟩
  rw [mem_blk9]
  intro a
  match a with
  | ⟨0, _⟩ => show win0_9.index (pointOf i) (0 : Fin 2) * 5000 ≤ (i 0).val ∧ (i 0).val < win0_9.index (pointOf i) (0 : Fin 2) * 5000 + 5000; omega
  | ⟨1, _⟩ => show win0_9.index (pointOf i) (1 : Fin 2) * 64 ≤ (i 1).val ∧ (i 1).val < win0_9.index (pointOf i) (1 : Fin 2) * 64 + 64; omega

theorem cover10 (i : S1000000x64.Idx) : ∃ t : Fin cfg0.N, (cfg0.win 10).flush t = true ∧ i ∈ ((cfg0.win 10).blk t).view.set := by
  have hi0 : (i 0).val < 1000000 := (i 0).isLt
  have hi1 : (i 1).val < 64 := (i 1).isLt
  obtain ⟨e0, e1⟩ := idx10 (pointOf i)
  have ht : (pointOf i).val = (i 0).val / 5000 := rfl
  refine ⟨pointOf i, flush0_10 _, ?_⟩
  rw [mem_blk10]
  intro a
  match a with
  | ⟨0, _⟩ => show win0_10.index (pointOf i) (0 : Fin 2) * 5000 ≤ (i 0).val ∧ (i 0).val < win0_10.index (pointOf i) (0 : Fin 2) * 5000 + 5000; omega
  | ⟨1, _⟩ => show win0_10.index (pointOf i) (1 : Fin 2) * 64 ≤ (i 1).val ∧ (i 1).val < win0_10.index (pointOf i) (1 : Fin 2) * 64 + 64; omega

/-! ## The two arrays the edge region leaves -/

/-- After the edge region the new-edge array is the reference's new-edge stage of the arguments. -/
theorem final9 (c : Dev nD) : (dat0 (V1 m ρ) c).arrAt 9 cfg0.N = newEdges m c :=
  (dat0 (V1 m ρ) c).arrAt_eq_of_cover 9 (newEdges m c) (fun t _ => flushed9_eq m ρ c t) cover9

/-- After the edge region the normalized-edge array is the reference's normalized-edge stage of the arguments. -/
theorem final10 (c : Dev nD) : (dat0 (V1 m ρ) c).arrAt 10 cfg0.N = edgesOut m c :=
  (dat0 (V1 m ρ) c).arrAt_eq_of_cover 10 (edgesOut m c) (fun t _ => flushed10_eq m ρ c t) cover10

end Cert.KernelIdeal.EdgeArrays

end
-- ==== Proof.NodeBlock.lean ====
/-
  The node body of the graph layer, read at one entry of a block of node rows, on the extended reals.

  The new node row is a dense layer over the node's own row and the row of its summed incoming edges, plus a
  bias; the stored row is the layer normalization of the new row plus the old one. Every operation of the body
  is entrywise, acts along one row, or repeats a row or a column, so entry `(p, q)` of the result depends on
  row `p` of the inputs alone; the readings of those operations at one entry hold for any number of rows and
  are taken from the edge body's module.
-/
import proofs.«107986_j17901423690016_2_alg».proof.Proof.Gen.KernelIdeal.Skeleton
import proofs.«107986_j17901423690016_2_alg».proof.Proof.RowSpec
import proofs.«107986_j17901423690016_2_alg».proof.Proof.EdgeBlock
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodeBlock

open Idealize.ShloMosaic Idealize.ShloMosaic.ValueIdx Cert.KernelIdeal Cert.KernelIdeal.Gen Cert.RowSpec

/-! ## The dimension numbers of the body's two products

Each contracts axis 1 of the `10000 × 64` operand with axis 0 of the `64 × 64` one, with no batch axis:
the left index at output `(r, c)` and contraction position `k` is `(r, k)`, the right one `(k, c)`. -/

theorem dot_lhs0 (j : S10000x64.Idx) (c : dot_S10000x64_S64x64_S10000x64_1_0_0_1_n_n.contr.Idx) :
    (dot_S10000x64_S64x64_S10000x64_1_0_0_1_n_n.lhsIdx j c 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem dot_lhs1 (j : S10000x64.Idx) (c : dot_S10000x64_S64x64_S10000x64_1_0_0_1_n_n.contr.Idx) :
    (dot_S10000x64_S64x64_S10000x64_1_0_0_1_n_n.lhsIdx j c 1).val = (c ⟨0, by decide⟩).val :=
  dot_S10000x64_S64x64_S10000x64_1_0_0_1_n_n.lhsIdx_val_of_single rfl j c

theorem dot_rhs0 (j : S10000x64.Idx) (c : dot_S10000x64_S64x64_S10000x64_1_0_0_1_n_n.contr.Idx) :
    (dot_S10000x64_S64x64_S10000x64_1_0_0_1_n_n.rhsIdx j c 0).val = (c ⟨0, by decide⟩).val :=
  dot_S10000x64_S64x64_S10000x64_1_0_0_1_n_n.rhsIdx_val_of_single rfl j c

theorem dot_rhs1 (j : S10000x64.Idx) (c : dot_S10000x64_S64x64_S10000x64_1_0_0_1_n_n.contr.Idx) :
    (dot_S10000x64_S64x64_S10000x64_1_0_0_1_n_n.rhsIdx j c 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- One product of the body read at `(p, q)`: the 64-term contraction. -/
theorem dot_apply (l : FVec Ideal S10000x64 .bf16) (r : FVec Ideal S64x64 .bf16) (p : Fin 10000) (q : Fin 64) :
    FloatOps.matmul dot_S10000x64_S64x64_S10000x64_1_0_0_1_n_n none l r (constant S10000x64 .f32 0x00000000#32) (ix2 p q)
      = ∑ k : Fin 64, l (ix2 p k) * r (ix2 k q) :=
  EdgeBlock.matmul_zero_apply dot_S10000x64_S64x64_S10000x64_1_0_0_1_n_n rfl rfl dot_lhs0 dot_lhs1 dot_rhs0 dot_rhs1 l r p q

/-! ## The node body -/

/-- the normalized node row: layer normalization of (new node row + old node row), the new row being two 64-wide
    contractions (the casts to the narrow float format are the identity here) added up, plus the bias row -/
theorem nodeOut_apply (x0 x1 : Vec Ideal S10000x64 .f32) (x2 x3 : Vec Ideal S64x64 .bf16) (x4 x5 x6 : Vec Ideal S1x64 .f32) (p : Fin 10000) (q : Fin 64) :
    k1_pay1 (F := Ideal) (k1_pay2 x0 x1 x2 x3 x4 x5) x6 (ix2 p q)
      = layerNorm (fun k => dense2 (fun k' => x0 (ix2 p k')) (fun k' => x1 (ix2 p k')) (fun k' j => x2 (ix2 k' j)) (fun k' j => x3 (ix2 k' j)) (fun j => x4 (ix2 (0 : Fin 1) j)) k + x0 (ix2 p k))
          (fun j => x5 (ix2 (0 : Fin 1) j)) (fun j => x6 (ix2 (0 : Fin 1) j)) q := by
  unfold k1_pay1 k1_pay2
  simp only [shapeCast_self]
  -- the whole chain after the block (new rows + old rows) is the normalization of that block's row
  refine (EdgeBlock.layerNorm_block_apply _ x5 x6 _ _ _ _ _ _ p q).trans ?_
  -- and entry `k` of that row is the dense layer's entry plus the old entry
  refine congrArg (fun y => layerNorm y _ _ q) (funext fun k => ?_)
  unfold dense2
  simp only [addf_apply]
  refine congrArg (· + x0 (ix2 p k)) ?_
  refine congrArg₂ (· + ·) (congrArg₂ (· + ·) ?_ ?_) ?_
  · exact dot_apply _ _ p k
  · exact dot_apply _ _ p k
  · exact broadcastTo_1b_ab_apply _ _ p k

end Cert.KernelIdeal.NodeBlock

end
-- ==== Proof.NodeArrays.lean ====
/-
  The array the node region leaves, as a function of the argument arrays.

  The region's grid has 10 points; point `t` stages rows `10000 t …` of the node rows and of the summed
  incoming edges, and the whole of each weight block, bias and scale, and writes back rows `10000 t …` of
  the normalized nodes. The summed incoming edges it finds are the reference's: the edge region left the
  reference's new-edge rows, and the host adds them into the receiver nodes by the reference's own
  operation. Entry `(p, q)` of what a point writes depends only on row `10000 t + p`, and is the reference's
  stage there; the 10 blocks tile the hundred thousand rows.
-/
import proofs.«107986_j17901423690016_2_alg».proof.Proof.Gen.KernelIdeal.Frame
import proofs.«107986_j17901423690016_2_alg».proof.Proof.Gen.ReferenceIdeal.Read
import proofs.«107986_j17901423690016_2_alg».proof.Proof.RowSpec
import proofs.«107986_j17901423690016_2_alg».proof.Proof.HostReads
import proofs.«107986_j17901423690016_2_alg».proof.Proof.NodeBlock
import proofs.«107986_j17901423690016_2_alg».proof.Proof.EdgeArrays
import proofs.«107986_j17901423690016_2_alg».proof.Proof.RefRows
import Idealize.ShloMosaic.Lib.ValueIdx
import Idealize.ShloMosaic.Lib.Pipeline.Value

set_option maxRecDepth 16384

noncomputable section

namespace Cert.KernelIdeal.NodeArrays

open Cert.KernelIdeal Cert.KernelIdeal.Gen Cert.RowSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The summed incoming edges as one array: the reference's own stage of the argument arrays. -/
abbrev aggregated (c : Dev nD) : S100000x64.Idx → EReal :=
  Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The normalized node rows as one array: the reference's own stage of the argument arrays. -/
abbrev nodesOut (c : Dev nD) : S100000x64.Idx → EReal :=
  Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem hz : (![0, 0] : Fin 2 → Nat) = fun _ => 0 := funext fun a => by fin_cases a <;> rfl

/-- The node region finds, as the summed incoming edges, the reference's sum: the edge region left the
    reference's new-edge rows in the buffer that the host then adds into the receiver nodes, by the same
    operation on the same receivers. -/
theorem V3_aggregated (c : Dev nD) : (V3 m ρ c main_v26 : S100000x64.Idx → EReal) = aggregated m c := by
  rw [Cert.KernelIdeal.HostReads.V3_v26 m ρ c (Cert.KernelIdeal.EdgeArrays.newEdges m c)
    ((W2_arr m ρ c 9).trans (Cert.KernelIdeal.EdgeArrays.final9 m ρ c))]
  unfold aggregated Cert.ReferenceIdeal.Read.val_main_v21 Cert.ReferenceIdeal.Read.val_main_v19
    Cert.ReferenceIdeal.Read.val_main_v20 Cert.ReferenceIdeal.Read.val_main_cst
  rfl

/-! ## The index maps, decided once over the 10 grid points -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx7 : ∀ t : Fin cfg1.N, win1_7.index t (0 : Fin 2) = t.val ∧ win1_7.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)

/-- Row `p` of block `t` is row `10000 t + p` of the array, which has a hundred thousand rows. -/
theorem row_lt (t : Fin cfg1.N) (p : Fin 10000) : t.val * 10000 + p.val < 100000 := by
  have ht : t.val < 10 := lt_of_lt_of_eq t.isLt N_1
  omega

/-! ## Each input window's block read at an entry

    Stated at any contents `V` of the buffers on entry: a block's entry is the array's entry at the block's
    offset, whatever the array holds. -/

theorem read0 (V : (c : Dev nD) → (b : Ref sig .tc) → Buf (Elt Ideal) ((c : Thread nD τ).loc b)) (c : Dev nD) (t : Fin cfg1.N) (p : Fin 10000) (k : Fin 64) :
    iblk1 V c 0 t (ix2 p k) = (V c main_arg0 : S100000x64.Idx → EReal) (ix2 ⟨t.val * 10000 + p.val, row_lt t p⟩ k) := by
  show (V c main_arg0 : S100000x64.Idx → EReal) (((cfg1.win 0).blk t).view.emb (ix2 p k)) = _
  refine congrArg (V c main_arg0 : S100000x64.Idx → EReal) (funext fun a => Fin.ext ?_)
  obtain ⟨e0, e1⟩ := idx0 t
  match a with
  | ⟨0, _⟩ => show win1_0.index t (0 : Fin 2) * 10000 + 1 * p.val = t.val * 10000 + p.val; omega
  | ⟨1, _⟩ => show win1_0.index t (1 : Fin 2) * 64 + 1 * k.val = k.val; omega

theorem read1 (V : (c : Dev nD) → (b : Ref sig .tc) → Buf (Elt Ideal) ((c : Thread nD τ).loc b)) (c : Dev nD) (t : Fin cfg1.N) (p : Fin 10000) (k : Fin 64) :
    iblk1 V c 1 t (ix2 p k) = (V c main_v26 : S100000x64.Idx → EReal) (ix2 ⟨t.val * 10000 + p.val, row_lt t p⟩ k) := by
  show (V c main_v26 : S100000x64.Idx → EReal) (((cfg1.win 1).blk t).view.emb (ix2 p k)) = _
  refine congrArg (V c main_v26 : S100000x64.Idx → EReal) (funext fun a => Fin.ext ?_)
  obtain ⟨e0, e1⟩ := idx1 t
  match a with
  | ⟨0, _⟩ => show win1_1.index t (0 : Fin 2) * 10000 + 1 * p.val = t.val * 10000 + p.val; omega
  | ⟨1, _⟩ => show win1_1.index t (1 : Fin 2) * 64 + 1 * k.val = k.val; omega

theorem read2 (V : (c : Dev nD) → (b : Ref sig .tc) → Buf (Elt Ideal) ((c : Thread nD τ).loc b)) (c : Dev nD) (t : Fin cfg1.N) (k j : Fin 64) :
    iblk1 V c 2 t (ix2 k j) = (V c main_v29 : S64x64.Idx → EReal) (ix2 k j) := by
  show (V c main_v29 : S64x64.Idx → EReal) (((cfg1.win 2).blk t).view.emb (ix2 k j)) = _
  refine congrArg (V c main_v29 : S64x64.Idx → EReal) (funext fun a => Fin.ext ?_)
  obtain ⟨e0, e1⟩ := idx2 t
  match a with
  | ⟨0, _⟩ => show win1_2.index t (0 : Fin 2) * 64 + 1 * k.val = k.val; omega
  | ⟨1, _⟩ => show win1_2.index t (1 : Fin 2) * 64 + 1 * j.val = j.val; omega

theorem read3 (V : (c : Dev nD) → (b : Ref sig .tc) → Buf (Elt Ideal) ((c : Thread nD τ).loc b)) (c : Dev nD) (t : Fin cfg1.N) (k j : Fin 64) :
    iblk1 V c 3 t (ix2 k j) = (V c main_v30 : S64x64.Idx → EReal) (ix2 k j) := by
  show (V c main_v30 : S64x64.Idx → EReal) (((cfg1.win 3).blk t).view.emb (ix2 k j)) = _
  refine congrArg (V c main_v30 : S64x64.Idx → EReal) (funext fun a => Fin.ext ?_)
  obtain ⟨e0, e1⟩ := idx3 t
  match a with
  | ⟨0, _⟩ => show win1_3.index t (0 : Fin 2) * 64 + 1 * k.val = k.val; omega
  | ⟨1, _⟩ => show win1_3.index t (1 : Fin 2) * 64 + 1 * j.val = j.val; omega

theorem read4 (V : (c : Dev nD) → (b : Ref sig .tc) → Buf (Elt Ideal) ((c : Thread nD τ).loc b)) (c : Dev nD) (t : Fin cfg1.N) (u : Fin 1) (j : Fin 64) :
    iblk1 V c 4 t (ix2 u j) = (V c main_v31 : S1x64.Idx → EReal) (ix2 u j) := by
  show (V c main_v31 : S1x64.Idx → EReal) (((cfg1.win 4).blk t).view.emb (ix2 u j)) = _
  refine congrArg (V c main_v31 : S1x64.Idx → EReal) (funext fun a => Fin.ext ?_)
  obtain ⟨e0, e1⟩ := idx4 t
  match a with
  | ⟨0, _⟩ => show win1_4.index t (0 : Fin 2) * 1 + 1 * u.val = u.val; omega
  | ⟨1, _⟩ => show win1_4.index t (1 : Fin 2) * 64 + 1 * j.val = j.val; omega

theorem read5 (V : (c : Dev nD) → (b : Ref sig .tc) → Buf (Elt Ideal) ((c : Thread nD τ).loc b)) (c : Dev nD) (t : Fin cfg1.N) (u : Fin 1) (j : Fin 64) :
    iblk1 V c 5 t (ix2 u j) = (V c main_v32 : S1x64.Idx → EReal) (ix2 u j) := by
  show (V c main_v32 : S1x64.Idx → EReal) (((cfg1.win 5).blk t).view.emb (ix2 u j)) = _
  refine congrArg (V c main_v32 : S1x64.Idx → EReal) (funext fun a => Fin.ext ?_)
  obtain ⟨e0, e1⟩ := idx5 t
  match a with
  | ⟨0, _⟩ => show win1_5.index t (0 : Fin 2) * 1 + 1 * u.val = u.val; omega
  | ⟨1, _⟩ => show win1_5.index t (1 : Fin 2) * 64 + 1 * j.val = j.val; omega

theorem read6 (V : (c : Dev nD) → (b : Ref sig .tc) → Buf (Elt Ideal) ((c : Thread nD τ).loc b)) (c : Dev nD) (t : Fin cfg1.N) (u : Fin 1) (j : Fin 64) :
    iblk1 V c 6 t (ix2 u j) = (V c main_v33 : S1x64.Idx → EReal) (ix2 u j) := by
  show (V c main_v33 : S1x64.Idx → EReal) (((cfg1.win 6).blk t).view.emb (ix2 u j)) = _
  refine congrArg (V c main_v33 : S1x64.Idx → EReal) (funext fun a => Fin.ext ?_)
  obtain ⟨e0, e1⟩ := idx6 t
  match a with
  | ⟨0, _⟩ => show win1_6.index t (0 : Fin 2) * 1 + 1 * u.val = u.val; omega
  | ⟨1, _⟩ => show win1_6.index t (1 : Fin 2) * 64 + 1 * j.val = j.val; omega

/-- The output block's entry `(p, q)` sits at `(10000 t + p, q)` of its array. -/
theorem emb7 (t : Fin cfg1.N) (p : Fin 10000) (q : Fin 64) :
    ((cfg1.win 7).blk t).view.emb (ix2 p q) = (ix2 ⟨t.val * 10000 + p.val, row_lt t p⟩ q : S100000x64.Idx) :=
  funext fun a => Fin.ext (by
    obtain ⟨e0, e1⟩ := idx7 t
    match a with
    | ⟨0, _⟩ => show win1_7.index t (0 : Fin 2) * 10000 + 1 * p.val = t.val * 10000 + p.val; omega
    | ⟨1, _⟩ => show win1_7.index t (1 : Fin 2) * 64 + 1 * q.val = q.val; omega)

/-! ## What a point writes back is its block of the reference's stage -/

/-- Entry `k` of the new node row at row `10000 t + p`: the dense layer of the node row and its summed
    incoming edges, which is the reference's new-node stage there. -/
theorem newNode_block (c : Dev nD) (t : Fin cfg1.N) (p : Fin 10000) (k : Fin 64) :
    dense2 (fun k' => (iblk1 (V3 m ρ) c 0 t) (ix2 p k')) (fun k' => (iblk1 (V3 m ρ) c 1 t) (ix2 p k')) (fun k' j => (iblk1 (V3 m ρ) c 2 t) (ix2 k' j))
        (fun k' j => (iblk1 (V3 m ρ) c 3 t) (ix2 k' j)) (fun j => (iblk1 (V3 m ρ) c 4 t) (ix2 (0 : Fin 1) j)) k
      = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 10000 + p.val, row_lt t p⟩ k) := by
  rw [Cert.ReferenceIdeal.RefRows.newNodes_apply]
  have h0 : (fun k' => (iblk1 (V3 m ρ) c 0 t) (ix2 p k')) = fun k' => (m ((c : Thread nD τ).loc main_arg0)) (ix2 ⟨t.val * 10000 + p.val, row_lt t p⟩ k') :=
    funext fun k' => (read0 (V3 m ρ) c t p k').trans (congrFun (Cert.KernelIdeal.HostReads.V3_arg0 m ρ c) _)
  have h1 : (fun k' => (iblk1 (V3 m ρ) c 1 t) (ix2 p k')) = fun k' => Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 10000 + p.val, row_lt t p⟩ k') :=
    funext fun k' => (read1 (V3 m ρ) c t p k').trans (congrFun (V3_aggregated m ρ c) _)
  have h2 : (fun k' j => (iblk1 (V3 m ρ) c 2 t) (ix2 k' j)) = fun (k' j : Fin 64) => (m ((c : Thread nD τ).loc main_arg6)) (ix2 (⟨k'.val, by omega⟩ : Fin 128) j) :=
    funext fun k' => funext fun j => (read2 (V3 m ρ) c t k' j).trans (Cert.KernelIdeal.HostReads.V3_v29_apply m ρ c k' j)
  have h3 : (fun k' j => (iblk1 (V3 m ρ) c 3 t) (ix2 k' j)) = fun (k' j : Fin 64) => (m ((c : Thread nD τ).loc main_arg6)) (ix2 (⟨64 + k'.val, by omega⟩ : Fin 128) j) :=
    funext fun k' => funext fun j => (read3 (V3 m ρ) c t k' j).trans (Cert.KernelIdeal.HostReads.V3_v30_apply m ρ c k' j)
  have h4 : (fun j => (iblk1 (V3 m ρ) c 4 t) (ix2 (0 : Fin 1) j)) = fun (j : Fin 64) => (m ((c : Thread nD τ).loc main_arg7)) (ix1 j) :=
    funext fun j => (read4 (V3 m ρ) c t 0 j).trans (Cert.KernelIdeal.HostReads.V3_v31_apply m ρ c 0 j)
  rw [h0, h1, h2, h3, h4]

/-- Entry `(p, q)` of the node block at point `t`: the layer normalization of (new node row + old node row) at
    row `10000 t + p`: the reference's stage there. -/
theorem nodeOut_block (c : Dev nD) (t : Fin cfg1.N) (p : Fin 10000) (q : Fin 64) :
    k1_pay1 (F := Ideal) (k1_pay2 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)) (iblk1 (V3 m ρ) c 6 t) (ix2 p q) = nodesOut m c (ix2 ⟨t.val * 10000 + p.val, row_lt t p⟩ q) := by
  unfold nodesOut
  rw [Cert.KernelIdeal.NodeBlock.nodeOut_apply, Cert.ReferenceIdeal.RefRows.nodesOut_apply]
  have hx : (fun k => dense2 (fun k' => (iblk1 (V3 m ρ) c 0 t) (ix2 p k')) (fun k' => (iblk1 (V3 m ρ) c 1 t) (ix2 p k')) (fun k' j => (iblk1 (V3 m ρ) c 2 t) (ix2 k' j))
        (fun k' j => (iblk1 (V3 m ρ) c 3 t) (ix2 k' j)) (fun j => (iblk1 (V3 m ρ) c 4 t) (ix2 (0 : Fin 1) j)) k + (iblk1 (V3 m ρ) c 0 t) (ix2 p k))
      = fun k => Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 10000 + p.val, row_lt t p⟩ k) + (m ((c : Thread nD τ).loc main_arg0)) (ix2 ⟨t.val * 10000 + p.val, row_lt t p⟩ k) :=
    funext fun k => by rw [newNode_block m ρ c t p k, read0 (V3 m ρ) c t p k, congrFun (Cert.KernelIdeal.HostReads.V3_arg0 m ρ c) _]
  have h5 : (fun j => (iblk1 (V3 m ρ) c 5 t) (ix2 (0 : Fin 1) j)) = fun (j : Fin 64) => (m ((c : Thread nD τ).loc main_arg8)) (ix1 j) :=
    funext fun j => (read5 (V3 m ρ) c t 0 j).trans (Cert.KernelIdeal.HostReads.V3_v32_apply m ρ c 0 j)
  have h6 : (fun j => (iblk1 (V3 m ρ) c 6 t) (ix2 (0 : Fin 1) j)) = fun (j : Fin 64) => (m ((c : Thread nD τ).loc main_arg9)) (ix1 j) :=
    funext fun j => (read6 (V3 m ρ) c t 0 j).trans (Cert.KernelIdeal.HostReads.V3_v33_apply m ρ c 0 j)
  rw [hx, h5, h6]

/-- What point `t` writes back to the node result is block `t` of the reference's stage. -/
theorem flushed7_eq (c : Dev nD) (t : Fin cfg1.N) :
    (dat1 (V3 m ρ) c).flushed 7 t = ((cfg1.win 7).blk t).view.read (Elt Ideal) (nodesOut m c) := by
  show (cfg1.win 7).cut (grid1.coords t) ((dat1 (V3 m ρ) c).after 7 t) = _
  rw [after1_7]
  unfold out1_7
  rw [View.canon_unit_zero hz]
  simp only [View.ld_unit_zero (S := S10000x64) hz, View.ld_unit_zero (S := S64x64) hz, View.ld_unit_zero (S := S1x64) hz]
  funext y
  obtain ⟨p, q, rfl⟩ : ∃ (p : Fin 10000) (q : Fin 64), y = ix2 p q := ⟨y 0, y 1, eq_ix2 y⟩
  show k1_pay1 (F := Ideal) (k1_pay2 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)) (iblk1 (V3 m ρ) c 6 t) (ix2 p q) = nodesOut m c (((cfg1.win 7).blk t).view.emb (ix2 p q))
  rw [emb7 t p q]
  exact nodeOut_block m ρ c t p q

/-! ## The blocks tile the array: row `r` lies in the block of point `r / 10000` -/

theorem mem_blk7 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v34).slice (win1_7.rect t)).set ↔ _
  rw [View.set_slice_whole, Rect.mem_set_unit]
  exact Iff.rfl

/-- The point whose block holds row `r`. -/
def pointOf (i : S100000x64.Idx) : Fin cfg1.N :=
  ⟨(i 0).val / 10000, lt_of_lt_of_eq (by have h : (i 0).val < 100000 := (i 0).isLt; show (i 0).val / 10000 < 10; omega) N_1.symm⟩

theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  obtain ⟨e0, e1⟩ := idx7 (pointOf i)
  have ht : (pointOf i).val = (i 0).val / 10000 := rfl
  refine ⟨pointOf i, flush1_7 _, ?_⟩
  rw [mem_blk7]
  intro a
  match a with
  | ⟨0, _⟩ => show win1_7.index (pointOf i) (0 : Fin 2) * 10000 ≤ (i 0).val ∧ (i 0).val < win1_7.index (pointOf i) (0 : Fin 2) * 10000 + 10000; omega
  | ⟨1, _⟩ => show win1_7.index (pointOf i) (1 : Fin 2) * 64 ≤ (i 1).val ∧ (i 1).val < win1_7.index (pointOf i) (1 : Fin 2) * 64 + 64; omega

/-- After the node region the node result is the reference's normalized-node stage of the arguments. -/
theorem final7 (c : Dev nD) : (dat1 (V3 m ρ) c).arrAt 7 cfg1.N = nodesOut m c :=
  (dat1 (V3 m ρ) c).arrAt_eq_of_cover 7 (nodesOut m c) (fun t _ => flushed7_eq m ρ c t) cover7

end Cert.KernelIdeal.NodeArrays

end
-- ==== Proof.KernelResults.lean ====
/-
  The idealized kernel's run with both results as functions of the argument arrays.

  The last fold's contents at the node result are what the node region's write-backs leave, and at the edge
  result what the edge region's leave (nothing after the edge region writes that buffer); each is the
  reference's stage of the argument arrays.
-/
import proofs.«107986_j17901423690016_2_alg».proof.Proof.KernelRun
import proofs.«107986_j17901423690016_2_alg».proof.Proof.EdgeArrays
import proofs.«107986_j17901423690016_2_alg».proof.Proof.NodeArrays
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The node result after the run: what the node region's ten write-backs leave. -/
theorem W4_nodes (c : Dev nD) : W4 m ρ c (Proc.devRef .tc main_v34) = Cert.KernelIdeal.NodeArrays.nodesOut m c :=
  (W4_arr m ρ c 7).trans (Cert.KernelIdeal.NodeArrays.final7 m ρ c)

/-- The edge result after the run: the node region does not stage it and the second host stretch does not
    write it, so it is what the edge region's two hundred write-backs left. -/
theorem W4_edges (c : Dev nD) : W4 m ρ c (Proc.devRef .tc main_v23_1) = Cert.KernelIdeal.EdgeArrays.edgesOut m c :=
  calc W4 m ρ c (Proc.devRef .tc main_v23_1)
    _ = W3 m ρ c (Proc.devRef .tc main_v23_1) := W4_of_ne m ρ c main_v23_1 (by decide)
    _ = W2 m ρ c (Proc.devRef .tc main_v23_1) := by
          show StableHlo.after hostOps1 (W2 m ρ c) (Proc.devRef .tc main_v23_1) = _
          after_results
    _ = Cert.KernelIdeal.EdgeArrays.edgesOut m c := (W2_arr m ρ c 10).trans (Cert.KernelIdeal.EdgeArrays.final10 m ρ c)

/-- Every weakly fair execution of the idealized kernel terminates, nothing faulting, with the node result and
    the edge result at the reference's stages of the argument arrays, and every argument as launched. -/
theorem run : θ_run defs (onTc (τ := τ) (main (F := Ideal))) ⟨m, fun _ => 0, ρ⟩ (fun r => ∀ c : Dev nD,
      r.2.mem ((c.tc : Thread nD τ).loc main_v34) = Cert.KernelIdeal.NodeArrays.nodesOut m c
      ∧ r.2.mem ((c.tc : Thread nD τ).loc main_v23_1) = Cert.KernelIdeal.EdgeArrays.edgesOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run defs _ _).mono (fun r h c => ⟨(h c).1.trans (W4_nodes m ρ c), (h c).2.1.trans (W4_edges m ρ c), (h c).2.2⟩)
    (Cert.KernelIdeal.RunValue.run_results m ρ)

end Cert.KernelIdeal.Results

end
-- ==== Proof.lean ====
/-
  The proof of `Cert.Claim`: a message-passing graph layer computed by two tiled kernels against its plain
  reference, equal on the extended reals.

  Each edge row is updated by a dense layer over the edge row, its sender's node row and its receiver's node
  row laid side by side, plus a bias; the new edge rows are summed into their receiver nodes; each node row is
  updated by a dense layer over the node row and its summed incoming edges, plus a bias; both outputs are the
  layer normalization of (new row + old row). The kernel splits each dense layer's contraction into its
  64-wide pieces and adds the pieces' products; a finite sum may be regrouped in any commutative monoid, so the
  two programs agree at every entry whatever the inputs, finite or not: the precondition is never opened. The
  gather of node rows and the sum into receiver nodes are the same host operations on both sides and are never
  opened either. Every float constant (64, the small constant under the square root, zero) is the same word
  on both sides.

  The kernel's side: its run with both results named (KernelRun), what each region finds after the host
  stretches (HostReads), a block's entries as row functions (EdgeBlock, NodeBlock), the blocks tiling the
  arrays (EdgeArrays, NodeArrays), and the results as the reference's stages (KernelResults). The reference's
  side: its stages read as the same row functions (RefRows). The row functions themselves and the regrouping
  law are in RowSpec. The idealization rewrote nothing, so `preserves` asks nothing.
-/
import proofs.«107986_j17901423690016_2_alg».proof.Defs
import proofs.«107986_j17901423690016_2_alg».proof.Proof.Gen.Kernel
import proofs.«107986_j17901423690016_2_alg».proof.Proof.Gen.Kernel.Skeleton
import proofs.«107986_j17901423690016_2_alg».proof.Proof.Gen.Kernel.Launch
import proofs.«107986_j17901423690016_2_alg».proof.Proof.Gen.Kernel.Points
import proofs.«107986_j17901423690016_2_alg».proof.Proof.Gen.Kernel.Frame
import proofs.«107986_j17901423690016_2_alg».proof.Proof.Gen.KernelIdeal
import proofs.«107986_j17901423690016_2_alg».proof.Proof.Gen.KernelIdeal.Skeleton
import proofs.«107986_j17901423690016_2_alg».proof.Proof.Gen.KernelIdeal.Launch
import proofs.«107986_j17901423690016_2_alg».proof.Proof.Gen.KernelIdeal.Points
import proofs.«107986_j17901423690016_2_alg».proof.Proof.Gen.KernelIdeal.Frame
import proofs.«107986_j17901423690016_2_alg».proof.Proof.Gen.ReferenceIdeal
import proofs.«107986_j17901423690016_2_alg».proof.Proof.Gen.Pre_finite_inputs
import proofs.«107986_j17901423690016_2_alg».proof.Proof.Gen.ReferenceIdeal.Run
import proofs.«107986_j17901423690016_2_alg».proof.Proof.Gen.ReferenceIdeal.Read
import proofs.«107986_j17901423690016_2_alg».proof.Proof.KernelResults
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the node result and the edge result at
    the reference's stages of the (common) argument arrays. -/
theorem algebraic : Cert.algebraic_KernelIdeal_ReferenceIdeal := by
  intro m ρ m' ρ' _ hagree
  refine ⟨fun c => Cert.KernelIdeal.NodeArrays.nodesOut m c, fun c => Cert.KernelIdeal.EdgeArrays.edgesOut m c,
    Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, -, -⟩ := hagree c
    rw [Cert.ReferenceIdeal.Read.val_main_v51_eq, h0, h1, h2, h3, h4, h5, h6, h7, h8, h9]
  · obtain ⟨h0, h1, h2, h3, h4, h5, -, -, -, -, h10, h11⟩ := hagree c
    rw [Cert.ReferenceIdeal.Read.val_main_v76_eq, h0, h1, h2, h3, h4, h5, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
